-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S64x1024 : Shape := ⟨2, ![64, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  main_v18

def fn {F : FTy → Type} [FloatOps F] (main_arg0 : FVec F S8x2048x1024 .f32) (main_arg1 : FVec F S64x1024 .f32) (main_arg2 : FVec F S64x1024 .f32) (main_arg3 : FVec F S64x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_v13 main_v16
-- ==== Kernel.lean ====
abbrev S8x2048x1024 : Shape := ⟨3, ![8, 2048, 1024]⟩
abbrev S64x1024 : Shape := ⟨2, ![64, 1024]⟩
abbrev S1024x64 : Shape := ⟨2, ![1024, 64]⟩
abbrev S8x2048x64 : Shape := ⟨3, ![8, 2048, 64]⟩
abbrev S1x2048x1024 : Shape := ⟨3, ![1, 2048, 1024]⟩
abbrev S1x512x1024 : Shape := ⟨3, ![1, 512, 1024]⟩
abbrev S1x2048x64 : Shape := ⟨3, ![1, 2048, 64]⟩
abbrev S2048x64 : Shape := ⟨2, ![2048, 64]⟩
abbrev S2048x1 : Shape := ⟨2, ![2048, 1]⟩
abbrev S2048x1024 : Shape := ⟨2, ![2048, 1024]⟩
abbrev S512x1024 : Shape := ⟨2, ![512, 1024]⟩
abbrev S512x64 : Shape := ⟨2, ![512, 64]⟩
abbrev S2048x512 : Shape := ⟨2, ![2048, 512]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S8x2048x64, .f32⟩
  | .local _ .vmem, ⟨0, _⟩ => ⟨S1x2048x1024, .f32⟩
  | .local _ .vmem, ⟨1, _⟩ => ⟨S1x512x1024, .f32⟩
  | .local _ .vmem, ⟨2, _⟩ => ⟨S1x512x1024, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1x2048x64, .f32⟩
  | .local _ .vmem, ⟨7, _⟩ => ⟨S1x2048x64, .f32⟩
  | .local _ .vmem, ⟨8, _⟩ => ⟨S2048x64, .bf16⟩
  | .local _ .vmem, ⟨9, _⟩ => ⟨S2048x1, .f32⟩
  | .local _ .vmem, ⟨10, _⟩ => ⟨S2048x1, .f32⟩
  | .local _ .vmem, ⟨11, _⟩ => ⟨S2048x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_29 : BitVec 32 := 0#32
  let v52 : BitVec 1 := Scalar.cmpi .ne v51 c0_i32_29
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S64x1024_S1024x64_1_0 : S64x1024.Transposes [1, 0] S1024x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x64 : S2048x1.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S2048x1024_S1024x64_S2048x64_1_0_0_1_n_n_wf : DotDims.WF S2048x1024 S1024x64 S2048x64 [1] [0] [0] [1] [] []
  dot_S512x1024_S1024x64_S512x64_1_0_0_1_n_n_wf : DotDims.WF S512x1024 S1024x64 S512x64 [1] [0] [0] [1] [] []
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x64.size a ≤ S8x2048x64.size a
  hwx0_5 : ∀ i : grid0.Coords, EltTy.bits .f32 = 32 ∨ (Rect.block (s := S8x2048x64) S1x2048x64.size (cc0_transform_5 i) (hinb0_5 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S64x1024 : Shape := ⟨2, ![64, 1024]⟩
abbrev S8x2048x64 : Shape := ⟨3, ![8, 2048, 64]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S64x1024_S8x2048x64_2_1_01_0_n_n_wf : DotDims.WF S8x2048x1024 S64x1024 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S64x1024_S8x2048x64_2_1_01_0_n_n : DotDims S8x2048x1024 S64x1024 S8x2048x64 where
  lhsContracting := [2]
  rhsContracting := [1]
  lhsNonContracting := [0, 1]
  rhsNonContracting := [0]
  lhsBatch := []
  rhsBatch := []
  wf := dot_S8x2048x1024_S64x1024_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KB.Base.lean ====
/-
  What the three control cases of the attention kernel's body share: the arrays as the region finds them (the three
  weight matrices transposed by the host lines before it), each window's block at a grid point, the two conditions of
  the body (first key/value tile of a sequence; last tile) decided over the 8 × 4 grid, where the output window is
  idle, and the staging and scratch memrefs the body is called with.
-/
import proofs.«135365_j10101763080424_2_alg».proof.Proof.Gen.Kernel.Launch
import proofs.«135365_j10101763080424_2_alg».proof.Proof.Gen.Kernel.Skeleton
import proofs.«135365_j10101763080424_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the three transposes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the three transposes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No transpose writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved), for any proof data on the entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The body's first `if`: this is the first key/value tile of its sequence (grid coordinate 1 is zero). -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second `if`: this is the last tile of its sequence (grid coordinate 1 is three). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a sequence's last tile the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At a sequence's last tile it is live. -/
theorem liveAt0_5 : ∀ t : Fin cfg0.N, cond0_1 (grid0.coords t) → cfg0.idle 5 (grid0.coords t) = false := by decide +kernel

/-! ## The memrefs the body is called with -/

/-- One staging buffer of the output window, through which its contents are stated. -/
abbrev VO0_5 : View sig .tc .vmem S1x2048x64 .f32 := (Memref.whole cc0_stg5_0 : Memref sig .tc .vmem S1x2048x64 .f32).view
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x64 .f32 := win0_5.stage (cfg0.slots t 5)
abbrev hs0_5 (t : Fin cfg0.N) : (ms0_5 t).IsWhole := hstage0_5 ((cfg0.slots t 5).cast nbuf0_5)
/-- The four scratch operands: the projected queries, the running maximum, the running normaliser, the running
    weighted sum. Whole scoped buffers of the kernel's own, carried from one grid point to the next. -/
abbrev scM0_0 : Memref sig .tc .vmem S2048x64 .bf16 := Memref.whole cc0_scratch0
abbrev scM0_1 : Memref sig .tc .vmem S2048x1 .f32 := Memref.whole cc0_scratch1
abbrev scM0_2 : Memref sig .tc .vmem S2048x1 .f32 := Memref.whole cc0_scratch2
abbrev scM0_3 : Memref sig .tc .vmem S2048x64 .f32 := Memref.whole cc0_scratch3
abbrev VS0_0 : View sig .tc .vmem S2048x64 .bf16 := scM0_0.view
abbrev VS0_1 : View sig .tc .vmem S2048x1 .f32 := scM0_1.view
abbrev VS0_2 : View sig .tc .vmem S2048x1 .f32 := scM0_2.view
abbrev VS0_3 : View sig .tc .vmem S2048x64 .f32 := scM0_3.view

/-- The core's scoped buffers that are no staging buffer are the four scratch operands, each owned at some contents. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.Kernel.Hand

end
-- ==== Proof.KB.RunA.lean ====
/-
  The body at the FIRST key/value tile of a sequence: it projects the whole sequence's queries into the query scratch,
  resets the running maximum to its finite stand-in and the running normaliser and weighted sum to zero, then treats the
  tile like any other. All four scratch buffers are stored whole before they are read for the arithmetic, so the run
  takes them at any contents; the output buffer is left as found.
-/
import proofs.«135365_j10101763080424_2_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at a first tile: on whole memrefs — the five inputs at their contents, the output buffer at
    contents handed back untouched, the four scratch buffers at anything — it runs to the continuation holding each
    scratch buffer with the found pieces written. -/
noncomputable def kernelRun0_A (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond0_0 i) (hc1 : ¬cond0_1 i)
    (x0 : Vec F S1x2048x1024 .f32) (x1 : Vec F S1x512x1024 .f32) (x2 x3 x4 : Vec F S1024x64 .f32) :
    Σ' (LS0 : List (View.Piece (Elt F) S2048x64 .bf16)) (LS1 : List (View.Piece (Elt F) S2048x1 .f32)) (LS2 : List (View.Piece (Elt F) S2048x1 .f32)), { LS3 : List (View.Piece (Elt F) S2048x64 .f32) //
      ∀ (xi5 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, ?_, fun xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Hand

end
-- ==== Proof.KB.RunB.lean ====
/-
  The body at a MIDDLE key/value tile (neither the first nor the last of its sequence): it projects the tile's keys and
  values, scores the resident queries against the keys, and updates the running maximum, normaliser and weighted sum
  in the three scratch buffers; the query scratch and the output buffer are left as found. The run finds, per scratch
  buffer it stores into, the pieces it ends with.
-/
import proofs.«135365_j10101763080424_2_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at a middle tile: on whole memrefs — the five inputs at their contents, the output buffer and the
    query scratch at contents handed back untouched, the three running scratch buffers at what the tile before left —
    it runs to the continuation holding the running scratch buffers with the found pieces written. -/
noncomputable def kernelRun0_B (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond0_0 i) (hc1 : ¬cond0_1 i)
    (x0 : Vec F S1x2048x1024 .f32) (x1 : Vec F S1x512x1024 .f32) (x2 x3 x4 : Vec F S1024x64 .f32) (xs0 : Vec F S2048x64 .bf16) (xs1 xs2 : Vec F S2048x1 .f32) (xs3 : Vec F S2048x64 .f32) :
    Σ' (LS1 : List (View.Piece (Elt F) S2048x1 .f32)) (LS2 : List (View.Piece (Elt F) S2048x1 .f32)), { LS3 : List (View.Piece (Elt F) S2048x64 .f32) //
      ∀ (xi5 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, fun xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    isplitl [HS1]; · iexists _; iexact HS1
    isplitl [HS2]; · iexists _; iexact HS2
    iexists _; iexact HS3

end Cert.Kernel.Hand

end
-- ==== Proof.KB.RunC.lean ====
/-
  The body at the LAST key/value tile of a sequence: the update of a middle tile, then the weighted sum divided by the
  normaliser is stored into the output buffer. The query scratch is left as found.
-/
import proofs.«135365_j10101763080424_2_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at a last tile: on whole memrefs — the five inputs at their contents, the output buffer at
    anything, the query scratch at contents handed back untouched, the three running scratch buffers at what the tile
    before left — it runs to the continuation holding the running scratch buffers and the output buffer with the found
    pieces written. -/
noncomputable def kernelRun0_C (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond0_0 i) (hc1 : cond0_1 i)
    (x0 : Vec F S1x2048x1024 .f32) (x1 : Vec F S1x512x1024 .f32) (x2 x3 x4 : Vec F S1024x64 .f32) (xs0 : Vec F S2048x64 .bf16) (xs1 xs2 : Vec F S2048x1 .f32) (xs3 : Vec F S2048x64 .f32) :
    Σ' (L5 : List (View.Piece (Elt F) S1x2048x64 .f32)) (LS1 : List (View.Piece (Elt F) S2048x1 .f32)) (LS2 : List (View.Piece (Elt F) S2048x1 .f32)), { LS3 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    isplitl [HS1]; · iexists _; iexact HS1
    isplitl [HS2]; · iexists _; iexact HS2
    iexists _; iexact HS3

end Cert.Kernel.Hand

end
-- ==== Proof.KB.Frame.lean ====
/-
  What the attention kernel's buffers hold point by point over its 8 × 4 grid, and the proof data of its pipeline.

  A grid point is (sequence b, key/value tile kv). At kv = 0 the body fills the four scratch buffers afresh; at every
  later tile it updates the running maximum, normaliser and weighted sum from what the tile before left; at kv = 3 it
  also stores the output block. `outsAt0` follows this by recursion on the point: the output block (a placeholder
  away from last tiles, where the window is idle) and the four scratch buffers. The region invariant holds the scratch
  buffers at anything before the first point and at `outsAt0` of the point before afterwards. The two input windows on
  the activation array hold it at complementary half shares.
-/
import proofs.«135365_j10101763080424_2_alg».proof.Proof.KB.RunA
import proofs.«135365_j10101763080424_2_alg».proof.Proof.KB.RunB
import proofs.«135365_j10101763080424_2_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block and the four scratch buffers (queries, running maximum, normaliser, weighted sum). -/
abbrev Carried (F : FTy → Type) [FloatOps F] : Type :=
  Vec F S1x2048x64 .f32 × Vec F S2048x64 .bf16 × Vec F S2048x1 .f32 × Vec F S2048x1 .f32 × Vec F S2048x64 .f32

/-! ## The three cases at a point -/

/-- The run of a first tile at point `t`. -/
def runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
    ((hcond0_0 t).mpr h0) (fun h => h1 ((hcond0_1 t).mp h)) (iblk m c 0 t) (iblk m c 1 t) (iblk m c 2 t) (iblk m c 3 t) (iblk m c 4 t)

/-- The run of a middle tile at point `t`, over what the point before left. -/
def runB (c : Dev nD) (t : Fin cfg0.N) (h0 : ¬t.val % 4 = 0) (h1 : ¬t.val % 4 = 3) (prev : Carried F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h)) (iblk m c 0 t) (iblk m c 1 t) (iblk m c 2 t) (iblk m c 3 t) (iblk m c 4 t) prev.2.1 prev.2.2.1 prev.2.2.2.1 prev.2.2.2.2

/-- The run of a last tile at point `t`, over what the point before left. -/
def runC (c : Dev nD) (t : Fin cfg0.N) (h0 : ¬t.val % 4 = 0) (h1 : t.val % 4 = 3) (prev : Carried F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
    (fun h => h0 ((hcond0_0 t).mp h)) ((hcond0_1 t).mpr h1) (iblk m c 0 t) (iblk m c 1 t) (iblk m c 2 t) (iblk m c 3 t) (iblk m c 4 t) prev.2.1 prev.2.2.1 prev.2.2.2.1 prev.2.2.2.2

/-- What a first tile leaves: every scratch buffer's pieces read back; the output a placeholder nothing consults. -/
def outA (c : Dev nD) (t : Fin cfg0.N) (h0 : t.val % 4 = 0) (h1 : ¬t.val % 4 = 3) : Carried F :=
  (VO0_5.read (Elt F) (VO0_5.writes (Elt F) VO0_5.junk []),
   VS0_0.read (Elt F) (VS0_0.writes (Elt F) VS0_0.junk (runA m c t h0 h1).1),
   VS0_1.read (Elt F) (VS0_1.writes (Elt F) VS0_1.junk (runA m c t h0 h1).2.1),
   VS0_2.read (Elt F) (VS0_2.writes (Elt F) VS0_2.junk (runA m c t h0 h1).2.2.1),
   VS0_3.read (Elt F) (VS0_3.writes (Elt F) VS0_3.junk (runA m c t h0 h1).2.2.2.1))

/-- What a middle tile leaves: the queries as found, the three running buffers' pieces read back. -/
def outB (c : Dev nD) (t : Fin cfg0.N) (h0 : ¬t.val % 4 = 0) (h1 : ¬t.val % 4 = 3) (prev : Carried F) : Carried F :=
  (VO0_5.read (Elt F) (VO0_5.writes (Elt F) VO0_5.junk []),
   prev.2.1,
   VS0_1.read (Elt F) (VS0_1.writes (Elt F) VS0_1.junk (runB m c t h0 h1 prev).1),
   VS0_2.read (Elt F) (VS0_2.writes (Elt F) VS0_2.junk (runB m c t h0 h1 prev).2.1),
   VS0_3.read (Elt F) (VS0_3.writes (Elt F) VS0_3.junk (runB m c t h0 h1 prev).2.2.1))

/-- What a last tile leaves: the same, and the output block's pieces read back. -/
def outC (c : Dev nD) (t : Fin cfg0.N) (h0 : ¬t.val % 4 = 0) (h1 : t.val % 4 = 3) (prev : Carried F) : Carried F :=
  (VO0_5.read (Elt F) (VO0_5.writes (Elt F) VO0_5.junk (runC m c t h0 h1 prev).1),
   prev.2.1,
   VS0_1.read (Elt F) (VS0_1.writes (Elt F) VS0_1.junk (runC m c t h0 h1 prev).2.1),
   VS0_2.read (Elt F) (VS0_2.writes (Elt F) VS0_2.junk (runC m c t h0 h1 prev).2.2.1),
   VS0_3.read (Elt F) (VS0_3.writes (Elt F) VS0_3.junk (runC m c t h0 h1 prev).2.2.2.1))

/-! ## The stores of each case cover the buffer they go to -/

theorem scoverA_0 (c : Dev nD) (t : Fin cfg0.N) (h0 : t.val % 4 = 0) (h1 : ¬t.val % 4 = 3) (y : S2048x64.Idx) :
    ∃ pc ∈ (runA m c t h0 h1).1, y ∈ pc.1.set := View.cover_of_tiledL (runA m c t h0 h1).1 S2048x64.size (by sl_kernel_rfl) y
theorem scoverA_1 (c : Dev nD) (t : Fin cfg0.N) (h0 : t.val % 4 = 0) (h1 : ¬t.val % 4 = 3) (y : S2048x1.Idx) :
    ∃ pc ∈ (runA m c t h0 h1).2.1, y ∈ pc.1.set := View.cover_of_tiledL (runA m c t h0 h1).2.1 S2048x1.size (by sl_kernel_rfl) y
theorem scoverA_2 (c : Dev nD) (t : Fin cfg0.N) (h0 : t.val % 4 = 0) (h1 : ¬t.val % 4 = 3) (y : S2048x1.Idx) :
    ∃ pc ∈ (runA m c t h0 h1).2.2.1, y ∈ pc.1.set := View.cover_of_tiledL (runA m c t h0 h1).2.2.1 S2048x1.size (by sl_kernel_rfl) y
theorem scoverA_3 (c : Dev nD) (t : Fin cfg0.N) (h0 : t.val % 4 = 0) (h1 : ¬t.val % 4 = 3) (y : S2048x64.Idx) :
    ∃ pc ∈ (runA m c t h0 h1).2.2.2.1, y ∈ pc.1.set := View.cover_of_tiledL (runA m c t h0 h1).2.2.2.1 S2048x64.size (by sl_kernel_rfl) y
theorem scoverB_1 (c : Dev nD) (t : Fin cfg0.N) (h0 : ¬t.val % 4 = 0) (h1 : ¬t.val % 4 = 3) (prev : Carried F) (y : S2048x1.Idx) :
    ∃ pc ∈ (runB m c t h0 h1 prev).1, y ∈ pc.1.set := View.cover_of_tiledL (runB m c t h0 h1 prev).1 S2048x1.size (by sl_kernel_rfl) y
theorem scoverB_2 (c : Dev nD) (t : Fin cfg0.N) (h0 : ¬t.val % 4 = 0) (h1 : ¬t.val % 4 = 3) (prev : Carried F) (y : S2048x1.Idx) :
    ∃ pc ∈ (runB m c t h0 h1 prev).2.1, y ∈ pc.1.set := View.cover_of_tiledL (runB m c t h0 h1 prev).2.1 S2048x1.size (by sl_kernel_rfl) y
theorem scoverB_3 (c : Dev nD) (t : Fin cfg0.N) (h0 : ¬t.val % 4 = 0) (h1 : ¬t.val % 4 = 3) (prev : Carried F) (y : S2048x64.Idx) :
    ∃ pc ∈ (runB m c t h0 h1 prev).2.2.1, y ∈ pc.1.set := View.cover_of_tiledL (runB m c t h0 h1 prev).2.2.1 S2048x64.size (by sl_kernel_rfl) y
theorem coverC_5 (c : Dev nD) (t : Fin cfg0.N) (h0 : ¬t.val % 4 = 0) (h1 : t.val % 4 = 3) (prev : Carried F) (y : S1x2048x64.Idx) :
    ∃ pc ∈ (runC m c t h0 h1 prev).1, y ∈ pc.1.set := View.cover_of_tiledL (runC m c t h0 h1 prev).1 S1x2048x64.size (by sl_kernel_rfl) y
theorem scoverC_1 (c : Dev nD) (t : Fin cfg0.N) (h0 : ¬t.val % 4 = 0) (h1 : t.val % 4 = 3) (prev : Carried F) (y : S2048x1.Idx) :
    ∃ pc ∈ (runC m c t h0 h1 prev).2.1, y ∈ pc.1.set := View.cover_of_tiledL (runC m c t h0 h1 prev).2.1 S2048x1.size (by sl_kernel_rfl) y
theorem scoverC_2 (c : Dev nD) (t : Fin cfg0.N) (h0 : ¬t.val % 4 = 0) (h1 : t.val % 4 = 3) (prev : Carried F) (y : S2048x1.Idx) :
    ∃ pc ∈ (runC m c t h0 h1 prev).2.2.1, y ∈ pc.1.set := View.cover_of_tiledL (runC m c t h0 h1 prev).2.2.1 S2048x1.size (by sl_kernel_rfl) y
theorem scoverC_3 (c : Dev nD) (t : Fin cfg0.N) (h0 : ¬t.val % 4 = 0) (h1 : t.val % 4 = 3) (prev : Carried F) (y : S2048x64.Idx) :
    ∃ pc ∈ (runC m c t h0 h1 prev).2.2.2.1, y ∈ pc.1.set := View.cover_of_tiledL (runC m c t h0 h1 prev).2.2.2.1 S2048x64.size (by sl_kernel_rfl) y

/-! ## What the buffers hold after each point -/

/-- The output block and the scratch buffers after the body at position `n`: the case the position is in, over what
    position `n - 1` left. -/
def outsAt0 (c : Dev nD) : (n : ℕ) → n < cfg0.N → Carried F
  | 0, hn => outA m c ⟨0, hn⟩ (Nat.zero_mod _) (by show ¬(0 % 4 = 3); omega)
  | n + 1, hn =>
    if h0 : (n + 1) % 4 = 0 then
      outA m c ⟨n + 1, hn⟩ h0 (by show ¬((n + 1) % 4 = 3); omega)
    else if h1 : (n + 1) % 4 = 3 then
      outC m c ⟨n + 1, hn⟩ h0 h1 (outsAt0 c n (Nat.lt_of_succ_lt hn))
    else
      outB m c ⟨n + 1, hn⟩ h0 h1 (outsAt0 c n (Nat.lt_of_succ_lt hn))

theorem outsAt0_A (c : Dev nD) (t : Fin cfg0.N) (h0 : t.val % 4 = 0) (h1 : ¬t.val % 4 = 3) :
    outsAt0 m c t.val t.isLt = outA m c t h0 h1 := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = outB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = outC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the scratch buffers hold anything; afterwards what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2.1)
      ∗ owns (c : Thread nD τ) scM0_2 fullShare ((outsAt0 m c n hn).2.2.2.1) ∗ owns (c : Thread nD τ) scM0_3 fullShare ((outsAt0 m c n hn).2.2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1)
      ∗ owns (c : Thread nD τ) scM0_2 fullShare ((outsAt0 m c n hn).2.2.2.1) ∗ owns (c : Thread nD τ) scM0_3 fullShare ((outsAt0 m c n hn).2.2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1)
      ∗ owns (c : Thread nD τ) scM0_2 fullShare ((outsAt0 m c (n - 1) (by omega)).2.2.2.1) ∗ owns (c : Thread nD τ) scM0_3 fullShare ((outsAt0 m c (n - 1) (by omega)).2.2.2.2)) := by
  cases n with
  | zero => exact absurd rfl hz
  | succ n => rfl

/-! ## The pipeline's proof data -/

/-- The arrays as the region finds them; after the body each input's buffer at its block and the output's at
    `outsAt0`; the invariant `PhiS`; nothing owed; the two windows on the activation array at complementary halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Kernel.Hand

end
-- ==== Proof.KB.Body.lean ====
/-
  The body obligation of the attention kernel's pipeline at a generic grid point: the inputs' staging buffers hold
  their blocks; the point's position within its sequence (first tile, middle, last) selects the case, whose run applies;
  the invariant hands the body the scratch buffers at what the point before left (at anything before the first point)
  and takes them back at this point's contents; the output window is idle except at last tiles.
-/
import proofs.«135365_j10101763080424_2_alg».proof.Proof.KB.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 32 := lt_of_lt_of_eq t.isLt (show cfg0.N = 32 from N_0)
  by_cases h0 : t.val % 4 = 0
  · have h1 : ¬t.val % 4 = 3 := by omega
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold outA; (try dsimp only)
    by_cases hz : t.val = 0
    · rw [PhiS_castSucc m c t, PhiS_zero m c _ _ hz, scopedRest_scratch]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverA_0 m c t h0 h1)
        isplitl [HS1]
        · unfold owns; iexists _; isplitr
          swap; · iexact HS1
          ipureintro; exact View.read_writes_of_cover _ _ _ _ _ (scoverA_1 m c t h0 h1)
        isplitl [HS2]
        · unfold owns; iexists _; isplitr
          swap; · iexact HS2
          ipureintro; exact View.read_writes_of_cover _ _ _ _ _ (scoverA_2 m c t h0 h1)
        · unfold owns; iexists _; isplitr
          swap; · iexact HS3
          ipureintro; exact View.read_writes_of_cover _ _ _ _ _ (scoverA_3 m c t h0 h1)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverA_0 m c t h0 h1)
        isplitl [HS1]
        · unfold owns; iexists _; isplitr
          swap; · iexact HS1
          ipureintro; exact View.read_writes_of_cover _ _ _ _ _ (scoverA_1 m c t h0 h1)
        isplitl [HS2]
        · unfold owns; iexists _; isplitr
          swap; · iexact HS2
          ipureintro; exact View.read_writes_of_cover _ _ _ _ _ (scoverA_2 m c t h0 h1)
        · unfold owns; iexists _; isplitr
          swap; · iexact HS3
          ipureintro; exact View.read_writes_of_cover _ _ _ _ _ (scoverA_3 m c t h0 h1)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold outC; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply ((runC m c t h0 h1 _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, HS0, ⟨%es1, HS1⟩, ⟨%es2, HS2⟩, ⟨%es3, HS3⟩⟩
      isplitl [HS0 HS1 HS2 HS3]
      · isplitl [HS0]; · iexact HS0
        isplitl [HS1]
        · unfold owns; iexists _; isplitr
          swap; · iexact HS1
          ipureintro; exact View.read_writes_of_cover _ _ _ _ _ (scoverC_1 m c t h0 h1 _)
        isplitl [HS2]
        · unfold owns; iexists _; isplitr
          swap; · iexact HS2
          ipureintro; exact View.read_writes_of_cover _ _ _ _ _ (scoverC_2 m c t h0 h1 _)
        · unfold owns; iexists _; isplitr
          swap; · iexact HS3
          ipureintro; exact View.read_writes_of_cover _ _ _ _ _ (scoverC_3 m c t h0 h1 _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 m c t h0 h1 _)
    · rw [Dat.leavesExact_idle (dats m 0 c) 5 t (idleAt0_5 t (fun h => h1 ((hcond0_1 t).mp h))) (noFlush0_5 t (fun h => h1 ((hcond0_1 t).mp h)))]
      rw [outsAt0_B m c t h0 h1]
      unfold outB; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply ((runB m c t h0 h1 _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, ⟨%es1, HS1⟩, ⟨%es2, HS2⟩, ⟨%es3, HS3⟩⟩
      isplitl [HS0 HS1 HS2 HS3]
      · isplitl [HS0]; · iexact HS0
        isplitl [HS1]
        · unfold owns; iexists _; isplitr
          swap; · iexact HS1
          ipureintro; exact View.read_writes_of_cover _ _ _ _ _ (scoverB_1 m c t h0 h1 _)
        isplitl [HS2]
        · unfold owns; iexists _; isplitr
          swap; · iexact HS2
          ipureintro; exact View.read_writes_of_cover _ _ _ _ _ (scoverB_2 m c t h0 h1 _)
        · unfold owns; iexists _; isplitr
          swap; · iexact HS3
          ipureintro; exact View.read_writes_of_cover _ _ _ _ _ (scoverB_3 m c t h0 h1 _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the scratch buffers at anything — is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest_scratch]
  iintro ⟨HS0, HS1, HS2, HS3⟩
  isplitl [HS0]; · iexists _; iexact HS0
  isplitl [HS1]; · iexists _; iexact HS1
  isplitl [HS2]; · iexists _; iexact HS2
  iexists _; iexact HS3

end Cert.Kernel.Hand

end
-- ==== Proof.LibSharedFrame.lean ====
/-
  The frame run of ONE kernel region whose INPUT windows may read one array through several windows.

  The library's frame runs ask that the windows' arrays be pairwise distinct, so that each window holds its array at the
  full share. When two input windows stage blocks of one array, the array's full share is split between them; what
  the launch needs then is only how the buffers behind the arrays, whole at the region-entry contents, are dealt
  among the windows (`hsplit`). Everything else is as for distinct arrays: the body obligation at every point, a
  tracking invariant over the scoped buffers the body carries (`hin`, `hout`), @main up to the region (`hmain`).
  The kernel signals no one and names no semaphore of its own; its invariant does not hold the generator register.
  The post is the library's `FramePost`: every window's array at what the proof data compute, every other unscoped
  buffer as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run with a tracking invariant, for a region whose input windows may share arrays. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ scopedRest (Ix := Unit) (Name := ℕ) (U := UR sig nD τ) (Lvl := ℕ) (Val := Val) (cfgs p).spec c from by
      iintro ⟨-, HR⟩; iexact HR).trans (hin c))
    (hout := fun c => (hout c).trans (by
      iintro HR
      isplitr; · iempintro
      iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KB.Run.lean ====
/-
  The attention kernel's run: @main — three transposes, then the region — terminates without a fault from any launch
  memory, ends with the output array at what the proof data compute from the body's results point by point, and leaves
  the four argument arrays as launched. The activation array is read through two windows: its full share is dealt to
  them in halves.
-/
import proofs.«135365_j10101763080424_2_alg».proof.Proof.KB.Body
import proofs.«135365_j10101763080424_2_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows' arrays: the activations, the three transposed weights, the output. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)
          ∗ (((c : Thread nD τ).loc main_v3) ↦{fullShare} W main_v3)) := by
  unfold Pipeline.arrBufs
  exact bigSep_eq_bigSepL_of_eq [main_arg0, main_v0, main_v1, main_v2, main_v3] (by decide) (by decide) _

/-- The proof data's arrays at entry, window by window: the activations at the two halves, the rest whole. -/
theorem arrays_list (c : Dev nD) :
    ((dats m 0 c).arrays ((dats m 0 c).arrAt · 0) : sProp 𝕄)
      = iprop((((c : Thread nD τ).loc main_arg0) ↦{fullShare.left} V m c main_arg0) ∗ (((c : Thread nD τ).loc main_arg0) ↦{fullShare.right} V m c main_arg0)
          ∗ (((c : Thread nD τ).loc main_v0) ↦{fullShare} V m c main_v0) ∗ (((c : Thread nD τ).loc main_v1) ↦{fullShare} V m c main_v1)
          ∗ (((c : Thread nD τ).loc main_v2) ↦{fullShare} V m c main_v2) ∗ (((c : Thread nD τ).loc main_v3) ↦{fullShare} V m c main_v3)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- The activation array's full share is dealt to its two windows in halves; every other array goes whole to its window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_list]
  iintro ⟨HA, H0, H1, H2, H3⟩
  ihave HA' := (pointsTo_share (PosShare.mem_left_op_right fullShare)).1 $$ HA
  icases HA' with ⟨HAl, HAr⟩
  isplitl [HAl]; · iexact HAl
  isplitl [HAr]; · iexact HAr
  isplitl [H0]; · iexact H0
  isplitl [H1]; · iexact H1
  isplitl [H2]; · iexact H2
  iexact H3

set_option backward.isDefEq.respectTransparency.types false in
/-- Every weakly fair execution of @main terminates without a fault; every final state has each window's array at
    what the proof data compute and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The run with the output array named and the argument arrays unchanged. -/
theorem run_out : θ_run defs (onTc (τ := τ) (main (F := F))) ⟨m, fun _ => 0, ρ⟩ (fun r => ∀ c : Dev nD,
      r.2.mem ((c.tc : Thread nD τ).loc main_v3) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

/-- The frame: the run ends, nothing faults, the argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_out m ρ)

end Cert.Kernel.Hand

end
-- ==== Proof.KI.Base.lean ====
/-
  What the three control cases of the attention kernel's body share: the arrays as the region finds them (the three
  weight matrices transposed by the host lines before it), each window's block at a grid point, the two conditions of
  the body (first key/value tile of a sequence; last tile) decided over the 8 × 4 grid, where the output window is
  idle, and the staging and scratch memrefs the body is called with.
-/
import proofs.«135365_j10101763080424_2_alg».proof.Proof.Gen.KernelIdeal.Launch
import proofs.«135365_j10101763080424_2_alg».proof.Proof.Gen.KernelIdeal.Skeleton
import proofs.«135365_j10101763080424_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the three transposes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the three transposes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No transpose writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved), for any proof data on the entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The body's first `if`: this is the first key/value tile of its sequence (grid coordinate 1 is zero). -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second `if`: this is the last tile of its sequence (grid coordinate 1 is three). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a sequence's last tile the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At a sequence's last tile it is live. -/
theorem liveAt0_5 : ∀ t : Fin cfg0.N, cond0_1 (grid0.coords t) → cfg0.idle 5 (grid0.coords t) = false := by decide +kernel

/-! ## The memrefs the body is called with -/

/-- One staging buffer of the output window, through which its contents are stated. -/
abbrev VO0_5 : View sig .tc .vmem S1x2048x64 .f32 := (Memref.whole cc0_stg5_0 : Memref sig .tc .vmem S1x2048x64 .f32).view
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x64 .f32 := win0_5.stage (cfg0.slots t 5)
abbrev hs0_5 (t : Fin cfg0.N) : (ms0_5 t).IsWhole := hstage0_5 ((cfg0.slots t 5).cast nbuf0_5)
/-- The four scratch operands: the projected queries, the running maximum, the running normaliser, the running
    weighted sum. Whole scoped buffers of the kernel's own, carried from one grid point to the next. -/
abbrev scM0_0 : Memref sig .tc .vmem S2048x64 .bf16 := Memref.whole cc0_scratch0
abbrev scM0_1 : Memref sig .tc .vmem S2048x1 .f32 := Memref.whole cc0_scratch1
abbrev scM0_2 : Memref sig .tc .vmem S2048x1 .f32 := Memref.whole cc0_scratch2
abbrev scM0_3 : Memref sig .tc .vmem S2048x64 .f32 := Memref.whole cc0_scratch3
abbrev VS0_0 : View sig .tc .vmem S2048x64 .bf16 := scM0_0.view
abbrev VS0_1 : View sig .tc .vmem S2048x1 .f32 := scM0_1.view
abbrev VS0_2 : View sig .tc .vmem S2048x1 .f32 := scM0_2.view
abbrev VS0_3 : View sig .tc .vmem S2048x64 .f32 := scM0_3.view

/-- The core's scoped buffers that are no staging buffer are the four scratch operands, each owned at some contents. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.KernelIdeal.Hand

end
-- ==== Proof.KI.RunA.lean ====
/-
  The body at the FIRST key/value tile of a sequence: it projects the whole sequence's queries into the query scratch,
  resets the running maximum to its finite stand-in and the running normaliser and weighted sum to zero, then treats the
  tile like any other. All four scratch buffers are stored whole before they are read for the arithmetic, so the run
  takes them at any contents; the output buffer is left as found.
-/
import proofs.«135365_j10101763080424_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at a first tile: on whole memrefs — the five inputs at their contents, the output buffer at
    contents handed back untouched, the four scratch buffers at anything — it runs to the continuation holding each
    scratch buffer with the found pieces written. -/
noncomputable def kernelRun0_A (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : cond0_0 i) (hc1 : ¬cond0_1 i)
    (x0 : Vec F S1x2048x1024 .f32) (x1 : Vec F S1x512x1024 .f32) (x2 x3 x4 : Vec F S1024x64 .f32) :
    Σ' (LS0 : List (View.Piece (Elt F) S2048x64 .bf16)) (LS1 : List (View.Piece (Elt F) S2048x1 .f32)) (LS2 : List (View.Piece (Elt F) S2048x1 .f32)), { LS3 : List (View.Piece (Elt F) S2048x64 .f32) //
      ∀ (xi5 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, ?_, fun xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
/-
  The body at a MIDDLE key/value tile (neither the first nor the last of its sequence): it projects the tile's keys and
  values, scores the resident queries against the keys, and updates the running maximum, normaliser and weighted sum
  in the three scratch buffers; the query scratch and the output buffer are left as found. The run finds, per scratch
  buffer it stores into, the pieces it ends with.
-/
import proofs.«135365_j10101763080424_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at a middle tile: on whole memrefs — the five inputs at their contents, the output buffer and the
    query scratch at contents handed back untouched, the three running scratch buffers at what the tile before left —
    it runs to the continuation holding the running scratch buffers with the found pieces written. -/
noncomputable def kernelRun0_B (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond0_0 i) (hc1 : ¬cond0_1 i)
    (x0 : Vec F S1x2048x1024 .f32) (x1 : Vec F S1x512x1024 .f32) (x2 x3 x4 : Vec F S1024x64 .f32) (xs0 : Vec F S2048x64 .bf16) (xs1 xs2 : Vec F S2048x1 .f32) (xs3 : Vec F S2048x64 .f32) :
    Σ' (LS1 : List (View.Piece (Elt F) S2048x1 .f32)) (LS2 : List (View.Piece (Elt F) S2048x1 .f32)), { LS3 : List (View.Piece (Elt F) S2048x64 .f32) //
      ∀ (xi5 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, fun xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Hand

end
-- ==== Proof.KI.RunC.lean ====
/-
  The body at the LAST key/value tile of a sequence: the update of a middle tile, then the weighted sum divided by the
  normaliser is stored into the output buffer. The query scratch is left as found.
-/
import proofs.«135365_j10101763080424_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at a last tile: on whole memrefs — the five inputs at their contents, the output buffer at
    anything, the query scratch at contents handed back untouched, the three running scratch buffers at what the tile
    before left — it runs to the continuation holding the running scratch buffers and the output buffer with the found
    pieces written. -/
noncomputable def kernelRun0_C (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1x2048x64 .f32) (harg7 : arg7.IsWhole) (arg8 : Memref sig .tc .vmem S2048x64 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x64 .f32) (harg11 : arg11.IsWhole) (hc0 : ¬cond0_0 i) (hc1 : cond0_1 i)
    (x0 : Vec F S1x2048x1024 .f32) (x1 : Vec F S1x512x1024 .f32) (x2 x3 x4 : Vec F S1024x64 .f32) (xs0 : Vec F S2048x64 .bf16) (xs1 xs2 : Vec F S2048x1 .f32) (xs3 : Vec F S2048x64 .f32) :
    Σ' (L5 : List (View.Piece (Elt F) S1x2048x64 .f32)) (LS1 : List (View.Piece (Elt F) S2048x1 .f32)) (LS2 : List (View.Piece (Elt F) S2048x1 .f32)), { LS3 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Hand

end
-- ==== Proof.KI.Frame.lean ====
/-
  What the attention kernel's buffers hold point by point over its 8 × 4 grid, and the proof data of its pipeline.

  A grid point is (sequence b, key/value tile kv). At kv = 0 the body fills the four scratch buffers afresh; at every
  later tile it updates the running maximum, normaliser and weighted sum from what the tile before left; at kv = 3 it
  also stores the output block. `outsAt0` follows this by recursion on the point: the output block (a placeholder
  away from last tiles, where the window is idle) and the four scratch buffers. The region invariant holds the scratch
  buffers at anything before the first point and at `outsAt0` of the point before afterwards. The two input windows on
  the activation array hold it at complementary half shares.
-/
import proofs.«135365_j10101763080424_2_alg».proof.Proof.KI.RunA
import proofs.«135365_j10101763080424_2_alg».proof.Proof.KI.RunB
import proofs.«135365_j10101763080424_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block and the four scratch buffers (queries, running maximum, normaliser, weighted sum). -/
abbrev Carried (F : FTy → Type) [FloatOps F] : Type :=
  Vec F S1x2048x64 .f32 × Vec F S2048x64 .bf16 × Vec F S2048x1 .f32 × Vec F S2048x1 .f32 × Vec F S2048x64 .f32

/-! ## The three cases at a point -/

/-- The run of a first tile at point `t`. -/
def runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
    ((hcond0_0 t).mpr h0) (fun h => h1 ((hcond0_1 t).mp h)) (iblk m c 0 t) (iblk m c 1 t) (iblk m c 2 t) (iblk m c 3 t) (iblk m c 4 t)

/-- The run of a middle tile at point `t`, over what the point before left. -/
def runB (c : Dev nD) (t : Fin cfg0.N) (h0 : ¬t.val % 4 = 0) (h1 : ¬t.val % 4 = 3) (prev : Carried F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h)) (iblk m c 0 t) (iblk m c 1 t) (iblk m c 2 t) (iblk m c 3 t) (iblk m c 4 t) prev.2.1 prev.2.2.1 prev.2.2.2.1 prev.2.2.2.2

/-- The run of a last tile at point `t`, over what the point before left. -/
def runC (c : Dev nD) (t : Fin cfg0.N) (h0 : ¬t.val % 4 = 0) (h1 : t.val % 4 = 3) (prev : Carried F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
    (fun h => h0 ((hcond0_0 t).mp h)) ((hcond0_1 t).mpr h1) (iblk m c 0 t) (iblk m c 1 t) (iblk m c 2 t) (iblk m c 3 t) (iblk m c 4 t) prev.2.1 prev.2.2.1 prev.2.2.2.1 prev.2.2.2.2

/-- What a first tile leaves: every scratch buffer's pieces read back; the output a placeholder nothing consults. -/
def outA (c : Dev nD) (t : Fin cfg0.N) (h0 : t.val % 4 = 0) (h1 : ¬t.val % 4 = 3) : Carried F :=
  (VO0_5.read (Elt F) (VO0_5.writes (Elt F) VO0_5.junk []),
   VS0_0.read (Elt F) (VS0_0.writes (Elt F) VS0_0.junk (runA m c t h0 h1).1),
   VS0_1.read (Elt F) (VS0_1.writes (Elt F) VS0_1.junk (runA m c t h0 h1).2.1),
   VS0_2.read (Elt F) (VS0_2.writes (Elt F) VS0_2.junk (runA m c t h0 h1).2.2.1),
   VS0_3.read (Elt F) (VS0_3.writes (Elt F) VS0_3.junk (runA m c t h0 h1).2.2.2.1))

/-- What a middle tile leaves: the queries as found, the three running buffers' pieces read back. -/
def outB (c : Dev nD) (t : Fin cfg0.N) (h0 : ¬t.val % 4 = 0) (h1 : ¬t.val % 4 = 3) (prev : Carried F) : Carried F :=
  (VO0_5.read (Elt F) (VO0_5.writes (Elt F) VO0_5.junk []),
   prev.2.1,
   VS0_1.read (Elt F) (VS0_1.writes (Elt F) VS0_1.junk (runB m c t h0 h1 prev).1),
   VS0_2.read (Elt F) (VS0_2.writes (Elt F) VS0_2.junk (runB m c t h0 h1 prev).2.1),
   VS0_3.read (Elt F) (VS0_3.writes (Elt F) VS0_3.junk (runB m c t h0 h1 prev).2.2.1))

/-- What a last tile leaves: the same, and the output block's pieces read back. -/
def outC (c : Dev nD) (t : Fin cfg0.N) (h0 : ¬t.val % 4 = 0) (h1 : t.val % 4 = 3) (prev : Carried F) : Carried F :=
  (VO0_5.read (Elt F) (VO0_5.writes (Elt F) VO0_5.junk (runC m c t h0 h1 prev).1),
   prev.2.1,
   VS0_1.read (Elt F) (VS0_1.writes (Elt F) VS0_1.junk (runC m c t h0 h1 prev).2.1),
   VS0_2.read (Elt F) (VS0_2.writes (Elt F) VS0_2.junk (runC m c t h0 h1 prev).2.2.1),
   VS0_3.read (Elt F) (VS0_3.writes (Elt F) VS0_3.junk (runC m c t h0 h1 prev).2.2.2.1))

/-! ## The stores of each case cover the buffer they go to -/

theorem scoverA_0 (c : Dev nD) (t : Fin cfg0.N) (h0 : t.val % 4 = 0) (h1 : ¬t.val % 4 = 3) (y : S2048x64.Idx) :
    ∃ pc ∈ (runA m c t h0 h1).1, y ∈ pc.1.set := View.cover_of_tiledL (runA m c t h0 h1).1 S2048x64.size (by sl_kernel_rfl) y
theorem scoverA_1 (c : Dev nD) (t : Fin cfg0.N) (h0 : t.val % 4 = 0) (h1 : ¬t.val % 4 = 3) (y : S2048x1.Idx) :
    ∃ pc ∈ (runA m c t h0 h1).2.1, y ∈ pc.1.set := View.cover_of_tiledL (runA m c t h0 h1).2.1 S2048x1.size (by sl_kernel_rfl) y
theorem scoverA_2 (c : Dev nD) (t : Fin cfg0.N) (h0 : t.val % 4 = 0) (h1 : ¬t.val % 4 = 3) (y : S2048x1.Idx) :
    ∃ pc ∈ (runA m c t h0 h1).2.2.1, y ∈ pc.1.set := View.cover_of_tiledL (runA m c t h0 h1).2.2.1 S2048x1.size (by sl_kernel_rfl) y
theorem scoverA_3 (c : Dev nD) (t : Fin cfg0.N) (h0 : t.val % 4 = 0) (h1 : ¬t.val % 4 = 3) (y : S2048x64.Idx) :
    ∃ pc ∈ (runA m c t h0 h1).2.2.2.1, y ∈ pc.1.set := View.cover_of_tiledL (runA m c t h0 h1).2.2.2.1 S2048x64.size (by sl_kernel_rfl) y
theorem scoverB_1 (c : Dev nD) (t : Fin cfg0.N) (h0 : ¬t.val % 4 = 0) (h1 : ¬t.val % 4 = 3) (prev : Carried F) (y : S2048x1.Idx) :
    ∃ pc ∈ (runB m c t h0 h1 prev).1, y ∈ pc.1.set := View.cover_of_tiledL (runB m c t h0 h1 prev).1 S2048x1.size (by sl_kernel_rfl) y
theorem scoverB_2 (c : Dev nD) (t : Fin cfg0.N) (h0 : ¬t.val % 4 = 0) (h1 : ¬t.val % 4 = 3) (prev : Carried F) (y : S2048x1.Idx) :
    ∃ pc ∈ (runB m c t h0 h1 prev).2.1, y ∈ pc.1.set := View.cover_of_tiledL (runB m c t h0 h1 prev).2.1 S2048x1.size (by sl_kernel_rfl) y
theorem scoverB_3 (c : Dev nD) (t : Fin cfg0.N) (h0 : ¬t.val % 4 = 0) (h1 : ¬t.val % 4 = 3) (prev : Carried F) (y : S2048x64.Idx) :
    ∃ pc ∈ (runB m c t h0 h1 prev).2.2.1, y ∈ pc.1.set := View.cover_of_tiledL (runB m c t h0 h1 prev).2.2.1 S2048x64.size (by sl_kernel_rfl) y
theorem coverC_5 (c : Dev nD) (t : Fin cfg0.N) (h0 : ¬t.val % 4 = 0) (h1 : t.val % 4 = 3) (prev : Carried F) (y : S1x2048x64.Idx) :
    ∃ pc ∈ (runC m c t h0 h1 prev).1, y ∈ pc.1.set := View.cover_of_tiledL (runC m c t h0 h1 prev).1 S1x2048x64.size (by sl_kernel_rfl) y
theorem scoverC_1 (c : Dev nD) (t : Fin cfg0.N) (h0 : ¬t.val % 4 = 0) (h1 : t.val % 4 = 3) (prev : Carried F) (y : S2048x1.Idx) :
    ∃ pc ∈ (runC m c t h0 h1 prev).2.1, y ∈ pc.1.set := View.cover_of_tiledL (runC m c t h0 h1 prev).2.1 S2048x1.size (by sl_kernel_rfl) y
theorem scoverC_2 (c : Dev nD) (t : Fin cfg0.N) (h0 : ¬t.val % 4 = 0) (h1 : t.val % 4 = 3) (prev : Carried F) (y : S2048x1.Idx) :
    ∃ pc ∈ (runC m c t h0 h1 prev).2.2.1, y ∈ pc.1.set := View.cover_of_tiledL (runC m c t h0 h1 prev).2.2.1 S2048x1.size (by sl_kernel_rfl) y
theorem scoverC_3 (c : Dev nD) (t : Fin cfg0.N) (h0 : ¬t.val % 4 = 0) (h1 : t.val % 4 = 3) (prev : Carried F) (y : S2048x64.Idx) :
    ∃ pc ∈ (runC m c t h0 h1 prev).2.2.2.1, y ∈ pc.1.set := View.cover_of_tiledL (runC m c t h0 h1 prev).2.2.2.1 S2048x64.size (by sl_kernel_rfl) y

/-! ## What the buffers hold after each point -/

/-- The output block and the scratch buffers after the body at position `n`: the case the position is in, over what
    position `n - 1` left. -/
def outsAt0 (c : Dev nD) : (n : ℕ) → n < cfg0.N → Carried F
  | 0, hn => outA m c ⟨0, hn⟩ (Nat.zero_mod _) (by show ¬(0 % 4 = 3); omega)
  | n + 1, hn =>
    if h0 : (n + 1) % 4 = 0 then
      outA m c ⟨n + 1, hn⟩ h0 (by show ¬((n + 1) % 4 = 3); omega)
    else if h1 : (n + 1) % 4 = 3 then
      outC m c ⟨n + 1, hn⟩ h0 h1 (outsAt0 c n (Nat.lt_of_succ_lt hn))
    else
      outB m c ⟨n + 1, hn⟩ h0 h1 (outsAt0 c n (Nat.lt_of_succ_lt hn))

theorem outsAt0_A (c : Dev nD) (t : Fin cfg0.N) (h0 : t.val % 4 = 0) (h1 : ¬t.val % 4 = 3) :
    outsAt0 m c t.val t.isLt = outA m c t h0 h1 := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = outB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = outC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the scratch buffers hold anything; afterwards what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2.1)
      ∗ owns (c : Thread nD τ) scM0_2 fullShare ((outsAt0 m c n hn).2.2.2.1) ∗ owns (c : Thread nD τ) scM0_3 fullShare ((outsAt0 m c n hn).2.2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1)
      ∗ owns (c : Thread nD τ) scM0_2 fullShare ((outsAt0 m c n hn).2.2.2.1) ∗ owns (c : Thread nD τ) scM0_3 fullShare ((outsAt0 m c n hn).2.2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1)
      ∗ owns (c : Thread nD τ) scM0_2 fullShare ((outsAt0 m c (n - 1) (by omega)).2.2.2.1) ∗ owns (c : Thread nD τ) scM0_3 fullShare ((outsAt0 m c (n - 1) (by omega)).2.2.2.2)) := by
  cases n with
  | zero => exact absurd rfl hz
  | succ n => rfl

/-! ## The pipeline's proof data -/

/-- The arrays as the region finds them; after the body each input's buffer at its block and the output's at
    `outsAt0`; the invariant `PhiS`; nothing owed; the two windows on the activation array at complementary halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Hand

end
-- ==== Proof.KI.Body.lean ====
/-
  The body obligation of the attention kernel's pipeline at a generic grid point: the inputs' staging buffers hold
  their blocks; the point's position within its sequence (first tile, middle, last) selects the case, whose run applies;
  the invariant hands the body the scratch buffers at what the point before left (at anything before the first point)
  and takes them back at this point's contents; the output window is idle except at last tiles.
-/
import proofs.«135365_j10101763080424_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 32 := lt_of_lt_of_eq t.isLt (show cfg0.N = 32 from N_0)
  by_cases h0 : t.val % 4 = 0
  · have h1 : ¬t.val % 4 = 3 := by omega
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold outA; (try dsimp only)
    by_cases hz : t.val = 0
    · rw [PhiS_castSucc m c t, PhiS_zero m c _ _ hz, scopedRest_scratch]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverA_0 m c t h0 h1)
        isplitl [HS1]
        · unfold owns; iexists _; isplitr
          swap; · iexact HS1
          ipureintro; exact View.read_writes_of_cover _ _ _ _ _ (scoverA_1 m c t h0 h1)
        isplitl [HS2]
        · unfold owns; iexists _; isplitr
          swap; · iexact HS2
          ipureintro; exact View.read_writes_of_cover _ _ _ _ _ (scoverA_2 m c t h0 h1)
        · unfold owns; iexists _; isplitr
          swap; · iexact HS3
          ipureintro; exact View.read_writes_of_cover _ _ _ _ _ (scoverA_3 m c t h0 h1)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverA_0 m c t h0 h1)
        isplitl [HS1]
        · unfold owns; iexists _; isplitr
          swap; · iexact HS1
          ipureintro; exact View.read_writes_of_cover _ _ _ _ _ (scoverA_1 m c t h0 h1)
        isplitl [HS2]
        · unfold owns; iexists _; isplitr
          swap; · iexact HS2
          ipureintro; exact View.read_writes_of_cover _ _ _ _ _ (scoverA_2 m c t h0 h1)
        · unfold owns; iexists _; isplitr
          swap; · iexact HS3
          ipureintro; exact View.read_writes_of_cover _ _ _ _ _ (scoverA_3 m c t h0 h1)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold outC; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply ((runC m c t h0 h1 _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, HS0, ⟨%es1, HS1⟩, ⟨%es2, HS2⟩, ⟨%es3, HS3⟩⟩
      isplitl [HS0 HS1 HS2 HS3]
      · isplitl [HS0]; · iexact HS0
        isplitl [HS1]
        · unfold owns; iexists _; isplitr
          swap; · iexact HS1
          ipureintro; exact View.read_writes_of_cover _ _ _ _ _ (scoverC_1 m c t h0 h1 _)
        isplitl [HS2]
        · unfold owns; iexists _; isplitr
          swap; · iexact HS2
          ipureintro; exact View.read_writes_of_cover _ _ _ _ _ (scoverC_2 m c t h0 h1 _)
        · unfold owns; iexists _; isplitr
          swap; · iexact HS3
          ipureintro; exact View.read_writes_of_cover _ _ _ _ _ (scoverC_3 m c t h0 h1 _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 m c t h0 h1 _)
    · rw [Dat.leavesExact_idle (dats m 0 c) 5 t (idleAt0_5 t (fun h => h1 ((hcond0_1 t).mp h))) (noFlush0_5 t (fun h => h1 ((hcond0_1 t).mp h)))]
      rw [outsAt0_B m c t h0 h1]
      unfold outB; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply ((runB m c t h0 h1 _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, ⟨%es1, HS1⟩, ⟨%es2, HS2⟩, ⟨%es3, HS3⟩⟩
      isplitl [HS0 HS1 HS2 HS3]
      · isplitl [HS0]; · iexact HS0
        isplitl [HS1]
        · unfold owns; iexists _; isplitr
          swap; · iexact HS1
          ipureintro; exact View.read_writes_of_cover _ _ _ _ _ (scoverB_1 m c t h0 h1 _)
        isplitl [HS2]
        · unfold owns; iexists _; isplitr
          swap; · iexact HS2
          ipureintro; exact View.read_writes_of_cover _ _ _ _ _ (scoverB_2 m c t h0 h1 _)
        · unfold owns; iexists _; isplitr
          swap; · iexact HS3
          ipureintro; exact View.read_writes_of_cover _ _ _ _ _ (scoverB_3 m c t h0 h1 _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the scratch buffers at anything — is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest_scratch]
  iintro ⟨HS0, HS1, HS2, HS3⟩
  isplitl [HS0]; · iexists _; iexact HS0
  isplitl [HS1]; · iexists _; iexact HS1
  isplitl [HS2]; · iexists _; iexact HS2
  iexists _; iexact HS3

end Cert.KernelIdeal.Hand

end
-- ==== Proof.KI.Run.lean ====
/-
  The attention kernel's run: @main — three transposes, then the region — terminates without a fault from any launch
  memory, ends with the output array at what the proof data compute from the body's results point by point, and leaves
  the four argument arrays as launched. The activation array is read through two windows: its full share is dealt to
  them in halves.
-/
import proofs.«135365_j10101763080424_2_alg».proof.Proof.KI.Body
import proofs.«135365_j10101763080424_2_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows' arrays: the activations, the three transposed weights, the output. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)
          ∗ (((c : Thread nD τ).loc main_v3) ↦{fullShare} W main_v3)) := by
  unfold Pipeline.arrBufs
  exact bigSep_eq_bigSepL_of_eq [main_arg0, main_v0, main_v1, main_v2, main_v3] (by decide) (by decide) _

/-- The proof data's arrays at entry, window by window: the activations at the two halves, the rest whole. -/
theorem arrays_list (c : Dev nD) :
    ((dats m 0 c).arrays ((dats m 0 c).arrAt · 0) : sProp 𝕄)
      = iprop((((c : Thread nD τ).loc main_arg0) ↦{fullShare.left} V m c main_arg0) ∗ (((c : Thread nD τ).loc main_arg0) ↦{fullShare.right} V m c main_arg0)
          ∗ (((c : Thread nD τ).loc main_v0) ↦{fullShare} V m c main_v0) ∗ (((c : Thread nD τ).loc main_v1) ↦{fullShare} V m c main_v1)
          ∗ (((c : Thread nD τ).loc main_v2) ↦{fullShare} V m c main_v2) ∗ (((c : Thread nD τ).loc main_v3) ↦{fullShare} V m c main_v3)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- The activation array's full share is dealt to its two windows in halves; every other array goes whole to its window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_list]
  iintro ⟨HA, H0, H1, H2, H3⟩
  ihave HA' := (pointsTo_share (PosShare.mem_left_op_right fullShare)).1 $$ HA
  icases HA' with ⟨HAl, HAr⟩
  isplitl [HAl]; · iexact HAl
  isplitl [HAr]; · iexact HAr
  isplitl [H0]; · iexact H0
  isplitl [H1]; · iexact H1
  isplitl [H2]; · iexact H2
  iexact H3

set_option backward.isDefEq.respectTransparency.types false in
/-- Every weakly fair execution of @main terminates without a fault; every final state has each window's array at
    what the proof data compute and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The run with the output array named and the argument arrays unchanged. -/
theorem run_out : θ_run defs (onTc (τ := τ) (main (F := F))) ⟨m, fun _ => 0, ρ⟩ (fun r => ∀ c : Dev nD,
      r.2.mem ((c.tc : Thread nD τ).loc main_v3) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

/-- The frame: the run ends, nothing faults, the argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_out m ρ)

end Cert.KernelIdeal.Hand

end
-- ==== Proof.KI.Pieces.lean ====
/-
  What each case of the attention kernel's body leaves in the scratch buffers and the output block, as the body's
  arithmetic over the point's input blocks and what the point before left: the stores' pieces read back.

  A first tile leaves: the queries projected from the sequence's activations; the running maximum, normaliser and
  weighted sum of ONE update step taken from the reset values (the finite stand-in, zero, zero). A middle tile leaves one
  update step taken from what it found. A last tile leaves the same and the output block: the new weighted sum divided by
  the new normaliser.
-/
import proofs.«135365_j10101763080424_2_alg».proof.Proof.KI.Frame
import Idealize.ShloMosaic.Lib.Pipeline.Value

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (m : (ℓ : Loc nD τ sig) → Buf (Elt F) ℓ)

theorem hz2 : (![0, 0] : Fin 2 → Nat) = fun _ => 0 := by funext a; fin_cases a <;> rfl
theorem hz3 : (![0, 0, 0] : Fin 3 → Nat) = fun _ => 0 := by funext a; fin_cases a <;> rfl

/-- A scratch buffer read whole through the contents it was handed at. -/
theorem read_sc0 (h : scM0_0.IsWhole) (X : Vec F S2048x64 .bf16) :
    View.read (Elt F) (View.whole cc0_scratch0 : View sig .tc .vmem S2048x64 .bf16) (h.unread X) = X := h.read_unread X
theorem read_sc1 (h : scM0_1.IsWhole) (X : Vec F S2048x1 .f32) :
    View.read (Elt F) (View.whole cc0_scratch1 : View sig .tc .vmem S2048x1 .f32) (h.unread X) = X := h.read_unread X
theorem read_sc2 (h : scM0_2.IsWhole) (X : Vec F S2048x1 .f32) :
    View.read (Elt F) (View.whole cc0_scratch2 : View sig .tc .vmem S2048x1 .f32) (h.unread X) = X := h.read_unread X
theorem read_sc3 (h : scM0_3.IsWhole) (X : Vec F S2048x64 .f32) :
    View.read (Elt F) (View.whole cc0_scratch3 : View sig .tc .vmem S2048x64 .f32) (h.unread X) = X := h.read_unread X

/-! ## A middle tile -/

theorem outB_0 (c : Dev nD) (t : Fin cfg0.N) (h0 : ¬t.val % 4 = 0) (h1 : ¬t.val % 4 = 3) (prev : Carried F) :
    (outB m c t h0 h1 prev).2.1 = prev.2.1 := by unfold outB; dsimp only

theorem outB_1 (c : Dev nD) (t : Fin cfg0.N) (h0 : ¬t.val % 4 = 0) (h1 : ¬t.val % 4 = 3) (prev : Carried F) :
    (outB m c t h0 h1 prev).2.2.1 = k0_pay3 (k0_pay12 (iblk m c 1 t) (iblk m c 3 t) prev.2.1 prev.2.2.1) := by
  unfold outB
  dsimp only
  rw [View.read_writes_eq_canon _ _ _ (scoverB_1 m c t h0 h1 prev)]
  unfold runB kernelRun0_B
  dsimp only
  sl_unfold_words
  rw [View.canon_unit_zero hz2]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

theorem outB_2 (c : Dev nD) (t : Fin cfg0.N) (h0 : ¬t.val % 4 = 0) (h1 : ¬t.val % 4 = 3) (prev : Carried F) :
    (outB m c t h0 h1 prev).2.2.2.1 = k0_pay1 (k0_pay15 (iblk m c 1 t) (iblk m c 3 t) prev.2.1 prev.2.2.1 prev.2.2.1 prev.2.2.2.1) (k0_pay16 (iblk m c 1 t) (iblk m c 3 t) prev.2.1 prev.2.2.1) := by
  unfold outB
  dsimp only
  rw [View.read_writes_eq_canon _ _ _ (scoverB_2 m c t h0 h1 prev)]
  unfold runB kernelRun0_B
  dsimp only
  sl_unfold_words
  rw [View.canon_unit_zero hz2]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

theorem outB_3 (c : Dev nD) (t : Fin cfg0.N) (h0 : ¬t.val % 4 = 0) (h1 : ¬t.val % 4 = 3) (prev : Carried F) :
    (outB m c t h0 h1 prev).2.2.2.2 = k0_pay2 (k0_pay10 (iblk m c 1 t) (iblk m c 4 t))
      (k0_pay13 (iblk m c 1 t) (iblk m c 3 t) prev.2.1 prev.2.2.1 prev.2.2.1) (k0_pay14 (iblk m c 1 t) (iblk m c 3 t) prev.2.1 prev.2.2.1) prev.2.2.2.2 := by
  unfold outB
  dsimp only
  rw [View.read_writes_eq_canon _ _ _ (scoverB_3 m c t h0 h1 prev)]
  unfold runB kernelRun0_B
  dsimp only
  sl_unfold_words
  rw [View.canon_unit_zero hz2]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

/-! ## A last tile -/

theorem outC_0 (c : Dev nD) (t : Fin cfg0.N) (h0 : ¬t.val % 4 = 0) (h1 : t.val % 4 = 3) (prev : Carried F) :
    (outC m c t h0 h1 prev).2.1 = prev.2.1 := by unfold outC; dsimp only

theorem outC_1 (c : Dev nD) (t : Fin cfg0.N) (h0 : ¬t.val % 4 = 0) (h1 : t.val % 4 = 3) (prev : Carried F) :
    (outC m c t h0 h1 prev).2.2.1 = k0_pay3 (k0_pay12 (iblk m c 1 t) (iblk m c 3 t) prev.2.1 prev.2.2.1) := by
  unfold outC
  dsimp only
  rw [View.read_writes_eq_canon _ _ _ (scoverC_1 m c t h0 h1 prev)]
  unfold runC kernelRun0_C
  dsimp only
  sl_unfold_words
  rw [View.canon_unit_zero hz2]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

theorem outC_2 (c : Dev nD) (t : Fin cfg0.N) (h0 : ¬t.val % 4 = 0) (h1 : t.val % 4 = 3) (prev : Carried F) :
    (outC m c t h0 h1 prev).2.2.2.1 = k0_pay1 (k0_pay15 (iblk m c 1 t) (iblk m c 3 t) prev.2.1 prev.2.2.1 prev.2.2.1 prev.2.2.2.1) (k0_pay16 (iblk m c 1 t) (iblk m c 3 t) prev.2.1 prev.2.2.1) := by
  unfold outC
  dsimp only
  rw [View.read_writes_eq_canon _ _ _ (scoverC_2 m c t h0 h1 prev)]
  unfold runC kernelRun0_C
  dsimp only
  sl_unfold_words
  rw [View.canon_unit_zero hz2]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

theorem outC_3 (c : Dev nD) (t : Fin cfg0.N) (h0 : ¬t.val % 4 = 0) (h1 : t.val % 4 = 3) (prev : Carried F) :
    (outC m c t h0 h1 prev).2.2.2.2 = k0_pay2 (k0_pay10 (iblk m c 1 t) (iblk m c 4 t))
      (k0_pay13 (iblk m c 1 t) (iblk m c 3 t) prev.2.1 prev.2.2.1 prev.2.2.1) (k0_pay14 (iblk m c 1 t) (iblk m c 3 t) prev.2.1 prev.2.2.1) prev.2.2.2.2 := by
  unfold outC
  dsimp only
  rw [View.read_writes_eq_canon _ _ _ (scoverC_3 m c t h0 h1 prev)]
  unfold runC kernelRun0_C
  dsimp only
  sl_unfold_words
  rw [View.canon_unit_zero hz2]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

/-- The output block of a last tile: the new weighted sum over the new normaliser. -/
theorem outC_5 (c : Dev nD) (t : Fin cfg0.N) (h0 : ¬t.val % 4 = 0) (h1 : t.val % 4 = 3) (prev : Carried F) :
    (outC m c t h0 h1 prev).1 = k0_pay4
      (k0_pay2 (k0_pay10 (iblk m c 1 t) (iblk m c 4 t)) (k0_pay13 (iblk m c 1 t) (iblk m c 3 t) prev.2.1 prev.2.2.1 prev.2.2.1) (k0_pay14 (iblk m c 1 t) (iblk m c 3 t) prev.2.1 prev.2.2.1) prev.2.2.2.2)
      (k0_pay1 (k0_pay15 (iblk m c 1 t) (iblk m c 3 t) prev.2.1 prev.2.2.1 prev.2.2.1 prev.2.2.2.1) (k0_pay16 (iblk m c 1 t) (iblk m c 3 t) prev.2.1 prev.2.2.1)) := by
  unfold outC
  dsimp only
  rw [View.read_writes_eq_canon _ _ _ (coverC_5 m c t h0 h1 prev)]
  unfold runC kernelRun0_C
  dsimp only
  sl_unfold_words
  rw [View.canon_unit_zero hz3]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

/-! ## A first tile -/

theorem outA_0 (c : Dev nD) (t : Fin cfg0.N) (h0 : t.val % 4 = 0) (h1 : ¬t.val % 4 = 3) :
    (outA m c t h0 h1).2.1 = k0_pay5 (iblk m c 0 t) (iblk m c 2 t) := by
  unfold outA
  dsimp only
  rw [View.read_writes_eq_canon _ _ _ (scoverA_0 m c t h0 h1)]
  unfold runA kernelRun0_A
  dsimp only
  sl_unfold_words
  rw [View.canon_unit_zero hz2]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

theorem outA_1 (c : Dev nD) (t : Fin cfg0.N) (h0 : t.val % 4 = 0) (h1 : ¬t.val % 4 = 3) :
    (outA m c t h0 h1).2.2.1 = k0_pay3 (k0_pay12 (iblk m c 1 t) (iblk m c 3 t) (k0_pay5 (iblk m c 0 t) (iblk m c 2 t)) (k0_pay6 (F := F))) := by
  unfold outA
  dsimp only
  rw [View.read_writes_eq_canon _ _ _ (scoverA_1 m c t h0 h1)]
  unfold runA kernelRun0_A
  dsimp only
  sl_unfold_words
  rw [View.canon_cons_unit_zero hz2]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

theorem outA_2 (c : Dev nD) (t : Fin cfg0.N) (h0 : t.val % 4 = 0) (h1 : ¬t.val % 4 = 3) :
    (outA m c t h0 h1).2.2.2.1 = k0_pay1 (k0_pay15 (iblk m c 1 t) (iblk m c 3 t) (k0_pay5 (iblk m c 0 t) (iblk m c 2 t)) (k0_pay6 (F := F)) (k0_pay6 (F := F)) (k0_pay7 (F := F))) (k0_pay16 (iblk m c 1 t) (iblk m c 3 t) (k0_pay5 (iblk m c 0 t) (iblk m c 2 t)) (k0_pay6 (F := F))) := by
  unfold outA
  dsimp only
  rw [View.read_writes_eq_canon _ _ _ (scoverA_2 m c t h0 h1)]
  unfold runA kernelRun0_A
  dsimp only
  sl_unfold_words
  rw [View.canon_cons_unit_zero hz2]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

theorem outA_3 (c : Dev nD) (t : Fin cfg0.N) (h0 : t.val % 4 = 0) (h1 : ¬t.val % 4 = 3) :
    (outA m c t h0 h1).2.2.2.2 = k0_pay2 (k0_pay10 (iblk m c 1 t) (iblk m c 4 t))
      (k0_pay13 (iblk m c 1 t) (iblk m c 3 t) (k0_pay5 (iblk m c 0 t) (iblk m c 2 t)) (k0_pay6 (F := F)) (k0_pay6 (F := F))) (k0_pay14 (iblk m c 1 t) (iblk m c 3 t) (k0_pay5 (iblk m c 0 t) (iblk m c 2 t)) (k0_pay6 (F := F))) (k0_pay8 (F := F)) := by
  unfold outA
  dsimp only
  rw [View.read_writes_eq_canon _ _ _ (scoverA_3 m c t h0 h1)]
  unfold runA kernelRun0_A
  dsimp only
  sl_unfold_words
  rw [View.canon_cons_unit_zero hz2]
  simp only [View.readAt_eq_ld, Memref.IsWhole.read_unread, read_sc0, read_sc1, read_sc2, read_sc3, View.ld_unit_zero (S := S1x2048x1024) hz3, View.ld_unit_zero (S := S1x512x1024) hz3, View.ld_unit_zero (S := S1024x64) hz2,
    View.ld_unit_zero (S := S2048x64) hz2, View.ld_unit_zero (S := S2048x1) hz2, View.ld_unit_zero (S := S1x2048x64) hz3,
    View.readCov_unit_zero (S := S2048x64) _ hz2, View.readCov_unit_zero (S := S2048x1) _ hz2]

end Cert.KernelIdeal.Hand
end
-- ==== Proof.KI.Blocks.lean ====
/-
  The input windows' blocks at a grid point, read at an index, as elements of the argument arrays.

  The grid is 8 × 4: point `t` is sequence `t / 4`, key/value tile `t % 4`. Window 0's block is the whole sequence
  `t / 4` of the activations; window 1's block is tile `t % 4` of that sequence, rows `512 · (t % 4) …`; windows 2, 3
  and 4 are whole weight matrices as the host's transposes left them, so element `(cc, h)` of the block is element
  `(h, cc)` of the argument. An element of a block sits in its array, on each axis, at the block index times the
  block's size plus its own coordinate; the block indices are decided once over the 32 points.
-/
import proofs.«135365_j10101763080424_2_alg».proof.Proof.KI.Base
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

variable {F : FTy → Type} [FloatOps F]

variable (m : (ℓ : Loc nD τ sig) → Buf (Elt F) ℓ)

/-- A grid point is below 32. -/
theorem pt_lt (t : Fin cfg0.N) : t.val < 32 := lt_of_lt_of_eq t.isLt N_0

/-- The block indices of the two activation windows, decided over the grid: window 0 follows the sequence, window 1
    the sequence and the tile. -/
theorem idx_facts01 : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4
    ∧ win0_1.index t (2 : Fin 3) = 0 :=
  (by decide +kernel : ∀ t : Fin grid0.N, _)

/-- Window 0's block at point `t` is sequence `t / 4` of the activations. -/
theorem blk0 (c : Dev nD) (t : Fin cfg0.N) (r : Fin 2048) (cc : Fin 1024) :
    (iblk m c 0 t : Vec F S1x2048x1024 .f32) (ix3 0 r cc)
      = (m ((c : Thread nD τ).loc main_arg0) : S8x2048x1024.Idx → Elt F .f32)
          (ix3 ⟨t.val / 4, by have := pt_lt t; omega⟩ r cc) := by
  obtain ⟨e0, e1, e2, -, -, -⟩ := idx_facts01 t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 1 + 1 * (0 : Fin 1).val = t.val / 4; rw [e0]; simp
  | ⟨1, _⟩ => show win0_0.index t 1 * 2048 + 1 * r.val = r.val; rw [e1]; omega
  | ⟨2, _⟩ => show win0_0.index t 2 * 1024 + 1 * cc.val = cc.val; rw [e2]; omega

/-- Window 1's block at point `t` is tile `t % 4` of sequence `t / 4`: rows `512 · (t % 4) + r`. -/
theorem blk1 (c : Dev nD) (t : Fin cfg0.N) (r : Fin 512) (cc : Fin 1024) :
    (iblk m c 1 t : Vec F S1x512x1024 .f32) (ix3 0 r cc)
      = (m ((c : Thread nD τ).loc main_arg0) : S8x2048x1024.Idx → Elt F .f32)
          (ix3 ⟨t.val / 4, by have := pt_lt t; omega⟩ ⟨512 * (t.val % 4) + r.val, by have := r.isLt; omega⟩ cc) := by
  obtain ⟨-, -, -, e0, e1, e2⟩ := idx_facts01 t
  unfold iblk
  rw [View.read_apply]
  show V m c main_arg0 _ = m (c.tc.loc main_arg0) _
  rw [V_main_arg0]
  refine congrArg _ (funext fun a => Fin.ext ?_)
  match a with
  | ⟨0, _⟩ => show win0_1.index t 0 * 1 + 1 * (0 : Fin 1).val = t.val / 4; rw [e0]; simp
  | ⟨1, _⟩ => show win0_1.index t 1 * 512 + 1 * r.val = 512 * (t.val % 4) + r.val; rw [e1]; omega
  | ⟨2, _⟩ => show win0_1.index t 2 * 1024 + 1 * cc.val = cc.val; rw [e2]; omega

/-! ## The weight windows: whole arrays the host transposed -/

/-- The three weight windows' block index is zero on both axes at every point. -/
theorem idx_facts234 : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The region finds `main_v0` at the transposed second weight argument (the query weights), -/
theorem V_main_v0 (c : Dev nD) : (V m c main_v0 : S1024x64.Idx → Elt F .f32)
    = transpose S1024x64 [1, 0] (m ((c : Thread nD τ).loc main_arg2) : S64x1024.Idx → Elt F .f32)
        transposes_S64x1024_S1024x64_1_0 := by
  dsimp only [V, hostOps0]; after_results
/-- `main_v1` at the transposed first (the key weights), -/
theorem V_main_v1 (c : Dev nD) : (V m c main_v1 : S1024x64.Idx → Elt F .f32)
    = transpose S1024x64 [1, 0] (m ((c : Thread nD τ).loc main_arg1) : S64x1024.Idx → Elt F .f32)
        transposes_S64x1024_S1024x64_1_0 := by
  dsimp only [V, hostOps0]; after_results
/-- `main_v2` at the transposed third (the value weights). -/
theorem V_main_v2 (c : Dev nD) : (V m c main_v2 : S1024x64.Idx → Elt F .f32)
    = transpose S1024x64 [1, 0] (m ((c : Thread nD τ).loc main_arg3) : S64x1024.Idx → Elt F .f32)
        transposes_S64x1024_S1024x64_1_0 := by
  dsimp only [V, hostOps0]; after_results

/-- A transposed [64, 1024] array read at `k`, whose coordinates are `(cc, h)`, is the array at `(h, cc)`. -/
theorem transpose_read {α : Type} (x : S64x1024.Idx → α) (k : S1024x64.Idx) (cc : Fin 1024) (h : Fin 64)
    (h0 : (k 0).val = cc.val) (h1 : (k 1).val = h.val) :
    transpose S1024x64 [1, 0] x transposes_S64x1024_S1024x64_1_0 k = x (ix2 h cc) :=
  transpose_apply [1, 0] x transposes_S64x1024_S1024x64_1_0 k (ix2 h cc) fun b =>
    match b with
    | ⟨0, _⟩ => h0.symm
    | ⟨1, _⟩ => h1.symm

/-- Window 2's block is the transposed query weights. -/
theorem blk2 (c : Dev nD) (t : Fin cfg0.N) (cc : Fin 1024) (h : Fin 64) :
    (iblk m c 2 t : Vec F S1024x64 .f32) (ix2 cc h)
      = (m ((c : Thread nD τ).loc main_arg2) : S64x1024.Idx → Elt F .f32) (ix2 h cc) := by
  obtain ⟨e0, e1, -, -, -, -⟩ := idx_facts234 t
  unfold iblk
  rw [View.read_apply]
  show V m c main_v0 _ = _
  rw [V_main_v0]
  refine transpose_read _ _ cc h ?_ ?_
  · show win0_2.index t 0 * 1024 + 1 * cc.val = cc.val; rw [e0]; omega
  · show win0_2.index t 1 * 64 + 1 * h.val = h.val; rw [e1]; omega

/-- Window 3's block is the transposed key weights. -/
theorem blk3 (c : Dev nD) (t : Fin cfg0.N) (cc : Fin 1024) (h : Fin 64) :
    (iblk m c 3 t : Vec F S1024x64 .f32) (ix2 cc h)
      = (m ((c : Thread nD τ).loc main_arg1) : S64x1024.Idx → Elt F .f32) (ix2 h cc) := by
  obtain ⟨-, -, e0, e1, -, -⟩ := idx_facts234 t
  unfold iblk
  rw [View.read_apply]
  show V m c main_v1 _ = _
  rw [V_main_v1]
  refine transpose_read _ _ cc h ?_ ?_
  · show win0_3.index t 0 * 1024 + 1 * cc.val = cc.val; rw [e0]; omega
  · show win0_3.index t 1 * 64 + 1 * h.val = h.val; rw [e1]; omega

/-- Window 4's block is the transposed value weights. -/
theorem blk4 (c : Dev nD) (t : Fin cfg0.N) (cc : Fin 1024) (h : Fin 64) :
    (iblk m c 4 t : Vec F S1024x64 .f32) (ix2 cc h)
      = (m ((c : Thread nD τ).loc main_arg3) : S64x1024.Idx → Elt F .f32) (ix2 h cc) := by
  obtain ⟨-, -, -, -, e0, e1⟩ := idx_facts234 t
  unfold iblk
  rw [View.read_apply]
  show V m c main_v2 _ = _
  rw [V_main_v2]
  refine transpose_read _ _ cc h ?_ ?_
  · show win0_4.index t 0 * 1024 + 1 * cc.val = cc.val; rw [e0]; omega
  · show win0_4.index t 1 * 64 + 1 * h.val = h.val; rw [e1]; omega

/-! ## The output window -/

/-- The output window's block index follows the sequence. -/
theorem idx_facts5 : ∀ t : Fin cfg0.N,
    win0_5.index t (0 : Fin 3) = t.val / 4 ∧ win0_5.index t (1 : Fin 3) = 0 ∧ win0_5.index t (2 : Fin 3) = 0 :=
  (by decide +kernel : ∀ t : Fin grid0.N, _)

/-- Element `(0, r, h)` of the output block at point `t` sits at `(t / 4, r, h)` of the result array. -/
theorem out_emb (t : Fin cfg0.N) (r : Fin 2048) (h : Fin 64) :
    (((cfg0.win 5).blk t).view.emb (ix3 (0 : Fin 1) r h : S1x2048x64.Idx) : S8x2048x64.Idx)
      = ix3 ⟨t.val / 4, by have := pt_lt t; omega⟩ r h := by
  obtain ⟨e0, e1, e2⟩ := idx_facts5 t
  funext a
  apply Fin.ext
  match a with
  | ⟨0, _⟩ => show win0_5.index t 0 * 1 + 1 * (0 : Fin 1).val = t.val / 4; rw [e0]; simp
  | ⟨1, _⟩ => show win0_5.index t 1 * 2048 + 1 * r.val = r.val; rw [e1]; omega
  | ⟨2, _⟩ => show win0_5.index t 2 * 64 + 1 * h.val = h.val; rw [e2]; omega

/-- An index of the result array is in point `t`'s block iff each coordinate is in the block's range on its axis. -/
theorem mem_blk5 (t : Fin cfg0.N) (i : S8x2048x64.Idx) :
    i ∈ ((cfg0.win 5).blk t).view.set ↔ ∀ a : Fin 3, win0_5.index t a * S1x2048x64.size a ≤ (i a).val
      ∧ (i a).val < win0_5.index t a * S1x2048x64.size a + S1x2048x64.size a := by
  show i ∈ ((View.whole main_v3).slice (win0_5.rect t)).set ↔ _
  rw [View.set_slice_whole, Rect.mem_set_unit]
  exact Iff.rfl

/-- Every index of the result array is in the block of a point that writes it back: sequence `b`'s last tile,
    point `4 b + 3`. -/
theorem cover5 (i : S8x2048x64.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 64 := (i 2).isLt
  obtain ⟨t, ht⟩ : ∃ t : Fin cfg0.N, t.val = 4 * (i 0).val + 3 :=
    ⟨⟨4 * (i 0).val + 3, lt_of_lt_of_eq (by omega : 4 * (i 0).val + 3 < 32) N_0.symm⟩, rfl⟩
  obtain ⟨e0, e1, e2⟩ := idx_facts5 t
  refine ⟨t, (flush0_5 t).mpr (by omega), ?_⟩
  rw [mem_blk5]
  intro a
  match a with
  | ⟨0, _⟩ => show win0_5.index t 0 * 1 ≤ (i 0).val ∧ (i 0).val < win0_5.index t 0 * 1 + 1; rw [e0]; omega
  | ⟨1, _⟩ => show win0_5.index t 1 * 2048 ≤ (i 1).val ∧ (i 1).val < win0_5.index t 1 * 2048 + 2048; rw [e1]; omega
  | ⟨2, _⟩ => show win0_5.index t 2 * 64 ≤ (i 2).val ∧ (i 2).val < win0_5.index t 2 * 64 + 64; rw [e2]; omega

/-- Block `t` of a whole-array function `G`, read at `(0, r, h)`, is `G` at `(t / 4, r, h)`. -/
theorem read_blk5 (G : S8x2048x64.Idx → Elt F .f32) (t : Fin cfg0.N) (r : Fin 2048) (h : Fin 64) :
    (((cfg0.win 5).blk t).view.read (Elt F) G : Vec F S1x2048x64 .f32) (ix3 0 r h)
      = G (ix3 ⟨t.val / 4, by have := pt_lt t; omega⟩ r h) := by
  rw [View.read_apply]
  show G (((cfg0.win 5).blk t).view.emb (ix3 (0 : Fin 1) r h : S1x2048x64.Idx)) = _
  rw [out_emb]

/-- THE RESULT ARRAY after the run is `G` as soon as what each sequence's last tile writes back is, element by
    element, `G` at that sequence's rows: the eight flushed blocks tile the array. -/
theorem arrAt5_of {c : Dev nD} (dat : Dat τ (Elt F) Unit ℕ (UR sig nD τ) ℕ cfg0 c) (G : S8x2048x64.Idx → Elt F .f32)
    (hfl : ∀ t : Fin cfg0.N, (cfg0.win 5).flush t = true → ∀ (r : Fin 2048) (h : Fin 64),
      (dat.flushed 5 t : Vec F S1x2048x64 .f32) (ix3 0 r h) = G (ix3 ⟨t.val / 4, by have := pt_lt t; omega⟩ r h)) :
    dat.arrAt 5 cfg0.N = G :=
  dat.arrAt_eq_of_cover 5 G (fun t hf => funext fun j => by
    obtain ⟨a, r, h, rfl⟩ : ∃ (a : Fin 1) (r : Fin 2048) (h : Fin 64), j = (ix3 a r h : S1x2048x64.Idx) :=
      ⟨(j : S1x2048x64.Idx) 0, (j : S1x2048x64.Idx) 1, (j : S1x2048x64.Idx) 2, eq_ix3 (n0 := 1) (n1 := 2048) (n2 := 64) j⟩
    obtain rfl : a = 0 := Subsingleton.elim _ _
    exact (hfl t hf r h).trans (read_blk5 G t r h).symm) cover5

end Cert.KernelIdeal.Hand

end
-- ==== Proof.Spec.lean ====
/-
  The mathematics both programs compute, over the extended reals and over plain index types, naming no program.

  One attention head over a batch of 8 sequences of 2048 tokens with 1024 features, projected to 64 features:
  for a token `t` of sequence `b`, the query, key and value projections are `proj x w b t h = ∑ c, x b t c · w h c`;
  the score of `t` against `s` is `(∑ h, q b t h · k b s h) · scale`; the output is the softmax of the scores along `s`
  applied to the values.

  `refOut` is the textbook form: subtract the row's maximum, exponentiate, divide each weight by the row's sum,
  then take the weighted sum of the values.

  `onlineOut` is the one-pass form over four tiles of 512 key/value tokens: a running maximum `m` (started at a
  finite stand-in `neg`), a running normaliser `l` and a running weighted sum `acc`, each rescaled by
  `exp (m_old - m_new)` when a tile raises the maximum; the output is `acc / l` after the last tile.
-/
import Idealize.ShloMosaic.PureOps.Ideal
import Mathlib.Algebra.BigOperators.Fin
import Mathlib.Order.CompleteLattice.Finset

noncomputable section

namespace Cert.Attn

open Idealize.ShloMosaic

/-- An activation array [8, 2048, 1024] as a function of its three coordinates. -/
abbrev Act := Fin 8 → Fin 2048 → Fin 1024 → EReal
/-- A weight array [64, 1024] (output feature, input feature). -/
abbrev Wt := Fin 64 → Fin 1024 → EReal

/-- A linear projection with the weight stored [out, in]. -/
def proj (x : Act) (w : Wt) (b : Fin 8) (t : Fin 2048) (h : Fin 64) : EReal :=
  ∑ c : Fin 1024, x b t c * w h c

/-- The scaled score of query token `t` against key token `s` in sequence `b`. -/
def score (scale : EReal) (x : Act) (wq wk : Wt) (b : Fin 8) (t s : Fin 2048) : EReal :=
  (∑ h : Fin 64, proj x wq b t h * proj x wk b s h) * scale

/-- The greatest score of a row. -/
def rowMax (scale : EReal) (x : Act) (wq wk : Wt) (b : Fin 8) (t : Fin 2048) : EReal :=
  Finset.univ.sup fun s : Fin 2048 => score scale x wq wk b t s

/-- The unnormalised softmax weight of `s` in row `t`. -/
def weight (scale : EReal) (x : Act) (wq wk : Wt) (b : Fin 8) (t s : Fin 2048) : EReal :=
  Ideal.exp (score scale x wq wk b t s - rowMax scale x wq wk b t)

/-- Softmax attention in its textbook form. -/
def refOut (scale : EReal) (x : Act) (wk wq wv : Wt) (b : Fin 8) (t : Fin 2048) (h : Fin 64) : EReal :=
  ∑ s : Fin 2048,
    Ideal.div (weight scale x wq wk b t s) (∑ s' : Fin 2048, weight scale x wq wk b t s') * proj x wv b s h

/-- Key/value token `r` of tile `j`: tiles are consecutive runs of 512 tokens. -/
def tileTok (j : Fin 4) (r : Fin 512) : Fin 2048 := ⟨512 * j.val + r.val, by omega⟩

/-- What the one-pass form carries for one query row: the running maximum, normaliser and weighted sum. -/
structure Row where
  m : EReal
  l : EReal
  acc : Fin 64 → EReal

/-- Before any tile: the maximum at the finite stand-in, nothing summed. -/
def Row.init (neg : EReal) : Row := ⟨neg, 0, fun _ => 0⟩

/-- Absorb one tile of 512 scores `sc` with their values `v`. -/
def Row.step (sc : Fin 512 → EReal) (v : Fin 512 → Fin 64 → EReal) (ρ : Row) : Row :=
  let m' := max ρ.m (Finset.univ.sup sc)
  let a := Ideal.exp (ρ.m - m')
  ⟨m', a * ρ.l + ∑ r : Fin 512, Ideal.exp (sc r - m'),
    fun h => a * ρ.acc h + ∑ r : Fin 512, Ideal.exp (sc r - m') * v r h⟩

/-- The carried state of row `(b, t)` after the first `n` tiles (`n ≤ 4`; beyond that the tile index wraps and is unused). -/
def rowAfter (neg scale : EReal) (x : Act) (wk wq wv : Wt) (b : Fin 8) (t : Fin 2048) : ℕ → Row
  | 0 => Row.init neg
  | n + 1 =>
    Row.step (fun r => score scale x wq wk b t (tileTok ⟨n % 4, Nat.mod_lt _ (by norm_num)⟩ r))
      (fun r h => proj x wv b (tileTok ⟨n % 4, Nat.mod_lt _ (by norm_num)⟩ r) h)
      (rowAfter neg scale x wk wq wv b t n)

/-- Softmax attention in its one-pass form over four tiles. -/
def onlineOut (neg scale : EReal) (x : Act) (wk wq wv : Wt) (b : Fin 8) (t : Fin 2048) (h : Fin 64) : EReal :=
  Ideal.div ((rowAfter neg scale x wk wq wv b t 4).acc h) (rowAfter neg scale x wk wq wv b t 4).l

end Cert.Attn

end
-- ==== Proof.KI.PayLayout.lean ====
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx

/-! ## The two column layouts of a per-row statistic -/

section Layout
variable {α : Type}

/-- An [a, 1] column broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

end Cert.KernelIdeal.Pay

end
-- ==== Proof.KI.PayPointwise.lean ====
import proofs.«135365_j10101763080424_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«135365_j10101763080424_2_alg».proof.Proof.KI.PayLayout

noncomputable section

namespace Cert.KernelIdeal.Pay

open Cert.KernelIdeal Cert.KernelIdeal.Gen Idealize.ShloMosaic Idealize.ShloMosaic.ValueIdx

/-! ## The payloads that are one pointwise step -/

/-- The new normaliser: the rescaled old one plus the tile's sum. -/
theorem pay1 (v31 v33 : FVec Ideal S2048x1 .f32) (j : S2048x1.Idx) : k0_pay1 v31 v33 j = v31 j + v33 j := by
  unfold k0_pay1
  rw [shapeCast_self]
  rfl

/-- The running maximum is stored as it is. -/
theorem pay3 (v23 : FVec Ideal S2048x1 .f32) : k0_pay3 v23 = v23 := by
  unfold k0_pay3
  rw [shapeCast_self]

/-- The output block: the weighted sum divided by the row's normaliser. -/
theorem pay4 (acc : Vec Ideal S2048x64 .f32) (l : Vec Ideal S2048x1 .f32) (t : Fin 2048) (h : Fin 64) :
    k0_pay4 acc l (ix3 (0 : Fin 1) t h) = Ideal.div (acc (ix2 t h)) (l (ix2 t (0 : Fin 1))) := by
  unfold k0_pay4
  refine (shapeCast_ab_1ab_apply _ _ (0 : Fin 1) t h).trans ?_
  refine (divf_apply _ _ _).trans ?_
  exact congrArg (Ideal.div (acc (ix2 t h))) (broadcastTo_a1_ab_apply l _ t h)

/-- The running maximum starts at a large negative finite number. -/
theorem pay6 (j : S2048x1.Idx) : k0_pay6 (F := Ideal) j = Ideal.ofBits .f32 0xFF333332#32 := by
  unfold k0_pay6
  rw [shapeCast_self]
  rfl

/-- The normaliser starts at zero. -/
theorem pay7 (j : S2048x1.Idx) : k0_pay7 (F := Ideal) j = 0 := by
  unfold k0_pay7
  rw [shapeCast_self]
  exact Ideal.ofBits_zero_f32

/-- The weighted sum starts at zero. -/
theorem pay8 (j : S2048x64.Idx) : k0_pay8 (F := Ideal) j = 0 := by
  unfold k0_pay8
  rw [shapeCast_self]
  exact Ideal.ofBits_zero_f32

/-- The factor that rescales what was carried under the old maximum. -/
theorem pay13 (x1 : Vec Ideal S1x512x1024 .f32) (x3 : Vec Ideal S1024x64 .f32) (q : Vec Ideal S2048x64 .bf16)
    (mo mo' : Vec Ideal S2048x1 .f32) (t : Fin 2048) :
    k0_pay13 x1 x3 q mo mo' (ix2 t (0 : Fin 1))
      = Ideal.exp (mo' (ix2 t (0 : Fin 1)) - k0_pay12 x1 x3 q mo (ix2 t (0 : Fin 1))) := rfl

/-- The tile's unnormalised weights under the new maximum. -/
theorem pay14 (x1 : Vec Ideal S1x512x1024 .f32) (x3 : Vec Ideal S1024x64 .f32) (q : Vec Ideal S2048x64 .bf16)
    (mo : Vec Ideal S2048x1 .f32) (t : Fin 2048) (r : Fin 512) :
    k0_pay14 x1 x3 q mo (ix2 t r)
      = Ideal.exp (k0_pay11 x1 x3 q (ix2 t r) - k0_pay12 x1 x3 q mo (ix2 t (0 : Fin 1))) := by
  unfold k0_pay14
  show Ideal.exp (k0_pay11 x1 x3 q (ix2 t r) - broadcastTo S2048x512 (k0_pay12 x1 x3 q mo) _ (ix2 t r)) = _
  exact congrArg (fun z => Ideal.exp (k0_pay11 x1 x3 q (ix2 t r) - z)) (broadcastTo_a1_ab_apply (k0_pay12 x1 x3 q mo) _ t r)

/-- The old normaliser rescaled. -/
theorem pay15 (x1 : Vec Ideal S1x512x1024 .f32) (x3 : Vec Ideal S1024x64 .f32) (q : Vec Ideal S2048x64 .bf16)
    (mo mo' lo : Vec Ideal S2048x1 .f32) (t : Fin 2048) :
    k0_pay15 x1 x3 q mo mo' lo (ix2 t (0 : Fin 1))
      = k0_pay13 x1 x3 q mo mo' (ix2 t (0 : Fin 1)) * lo (ix2 t (0 : Fin 1)) := rfl

end Cert.KernelIdeal.Pay

end
-- ==== Proof.KI.PayReduce.lean ====
import proofs.«135365_j10101763080424_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«135365_j10101763080424_2_alg».proof.Proof.KI.PayLayout

noncomputable section

namespace Cert.KernelIdeal.Pay

open Cert.KernelIdeal Cert.KernelIdeal.Gen Idealize.ShloMosaic Idealize.ShloMosaic.ValueIdx

/-! ## The two row reductions over a tile's 512 key tokens -/

/-- The word of minus infinity is the bottom of the extended reals. -/
theorem negInf_word : Ideal.ofBits .f32 0xFF800000#32 = (⊥ : EReal) := by simp [Ideal.ofBits, Ideal.ieee]

/-- Row t with key token k put back on the reduced axis is (t, k). -/
theorem lift_row (h : S2048x512.Reduces [1] S2048) (t : Fin 2048) (k : Fin (S2048x512.size 1)) :
    h.lift (ix1 t) k = ix2 t (⟨k.val, k.isLt⟩ : Fin 512) :=
  funext fun a => Fin.ext (by match a with | ⟨0, _⟩ => rfl | ⟨1, _⟩ => rfl)

/-- The tile's contribution to the normaliser: the sum of its 512 weights. -/
theorem pay16 (x1 : Vec Ideal S1x512x1024 .f32) (x3 : Vec Ideal S1024x64 .f32) (q : Vec Ideal S2048x64 .bf16)
    (mo : Vec Ideal S2048x1 .f32) (t : Fin 2048) :
    k0_pay16 x1 x3 q mo (ix2 t (0 : Fin 1)) = ∑ r : Fin 512, k0_pay14 x1 x3 q mo (ix2 t r) := by
  unfold k0_pay16
  refine (shapeCast_a_a1_apply _ _ t (0 : Fin 1)).trans ?_
  refine (Ideal.multiReduction_add_single (k0_pay14 x1 x3 q mo) _ _ _ _ (ix1 t)).trans ?_
  exact Finset.sum_congr rfl fun k _ => congrArg (k0_pay14 x1 x3 q mo) (lift_row _ t k)

/-- The new running maximum: the old one against the greatest of the tile's 512 scores. -/
theorem pay12 (x1 : Vec Ideal S1x512x1024 .f32) (x3 : Vec Ideal S1024x64 .f32) (q : Vec Ideal S2048x64 .bf16)
    (mo : Vec Ideal S2048x1 .f32) (t : Fin 2048) :
    k0_pay12 x1 x3 q mo (ix2 t (0 : Fin 1))
      = max (mo (ix2 t (0 : Fin 1))) (Finset.univ.sup fun r : Fin 512 => k0_pay11 x1 x3 q (ix2 t r)) := by
  unfold k0_pay12
  refine (maximumf_apply _ _ _).trans ?_
  refine congrArg (max (mo (ix2 t (0 : Fin 1)))) ?_
  refine (shapeCast_a_a1_apply _ _ t (0 : Fin 1)).trans ?_
  refine (Ideal.multiReduction_maximumf_single (k0_pay11 x1 x3 q) _ _ _ _ (ix1 t)).trans ?_
  have hf : (k0_pay11 x1 x3 q ∘ (reduces_S2048x512_S2048).lift (ix1 t)) = fun r : Fin 512 => k0_pay11 x1 x3 q (ix2 t r) :=
    funext fun k => congrArg (k0_pay11 x1 x3 q) (lift_row _ t k)
  rw [hf, Ideal.ofBits_def, negInf_word]
  rfl

end Cert.KernelIdeal.Pay

end
-- ==== Proof.KI.PayMatmul.lean ====
import proofs.«135365_j10101763080424_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The four matrix products of the kernel body, each read at an entry as a sum over its one contracted axis -/

/-! ### The product of a [2048, 1024] by a [1024, 64] array -/

theorem lhs_q_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem lhs_q_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhs_q_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhs_q_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The product of a [2048, 1024] by a [1024, 64] array, into a zero accumulator, entry by entry. -/
theorem matmul_q {φ₁ φ₂ : FTy} (l : FVec Ideal S2048x1024 φ₁) (r : FVec Ideal S1024x64 φ₂) (a : Fin 2048) (b : Fin 64) :
    matmul dot_S2048x1024_S1024x64_S2048x64_1_0_0_1_n_n none l r (constant (F := Ideal) S2048x64 .f32 0x00000000#32) (ix2 a b)
      = ∑ k : Fin 1024, l (ix2 a k) * r (ix2 k b) := by
  simp only [matmul]
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 a b) ((contrEquiv1 dot_S2048x1024_S1024x64_S2048x64_1_0_0_1_n_n 1024 rfl rfl).symm k) = ix2 a k := funext fun c => Fin.ext (by
    match c with
    | ⟨0, _⟩ => exact lhs_q_0 _ _
    | ⟨1, _⟩ => exact (lhs_q_1 _ _).trans hk)
  have er : dot_S2048x1024_S1024x64_S2048x64_1_0_0_1_n_n.rhsIdx (ix2 a b) ((contrEquiv1 dot_S2048x1024_S1024x64_S2048x64_1_0_0_1_n_n 1024 rfl rfl).symm k) = ix2 k b := funext fun c => Fin.ext (by
    match c with
    | ⟨0, _⟩ => exact (rhs_q_0 _ _).trans hk
    | ⟨1, _⟩ => exact rhs_q_1 _ _)
  rw [el, er]

/-! ### The product of a [512, 1024] by a [1024, 64] array -/

theorem lhs_kv_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_kv_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem rhs_kv_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem rhs_kv_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- The product of a [512, 1024] by a [1024, 64] array, into a zero accumulator, entry by entry. -/
theorem matmul_kv {φ₁ φ₂ : FTy} (l : FVec Ideal S512x1024 φ₁) (r : FVec Ideal S1024x64 φ₂) (a : Fin 512) (b : Fin 64) :
    matmul dot_S512x1024_S1024x64_S512x64_1_0_0_1_n_n none l r (constant (F := Ideal) S512x64 .f32 0x00000000#32) (ix2 a b)
      = ∑ k : Fin 1024, l (ix2 a k) * r (ix2 k b) := by
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 a b) ((contrEquiv1 dot_S512x1024_S1024x64_S512x64_1_0_0_1_n_n 1024 rfl rfl).symm k) = ix2 a k := funext fun c => Fin.ext (by
    match c with
    | ⟨0, _⟩ => exact lhs_kv_0 _ _
    | ⟨1, _⟩ => exact (lhs_kv_1 _ _).trans hk)
  have er : dot_S512x1024_S1024x64_S512x64_1_0_0_1_n_n.rhsIdx (ix2 a b) ((contrEquiv1 dot_S512x1024_S1024x64_S512x64_1_0_0_1_n_n 1024 rfl rfl).symm k) = ix2 k b := funext fun c => Fin.ext (by
    match c with
    | ⟨0, _⟩ => exact (rhs_kv_0 _ _).trans hk
    | ⟨1, _⟩ => exact rhs_kv_1 _ _)
  rw [el, er]

/-! ### The product of a [2048, 64] array by the transpose of a [512, 64] one -/

theorem lhs_qk_0 (i : S2048x512.Idx) (q : dot_S2048x64_S512x64_S2048x512_1_1_0_0_n_n.contr.Idx) :
    (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem lhs_qk_1 (i : S2048x512.Idx) (q : dot_S2048x64_S512x64_S2048x512_1_1_0_0_n_n.contr.Idx) :
    (dot_S2048x64_S512x64_S2048x512_1_1_0_0_n_n.lhsIdx i q 1).val = (q ⟨0, by decide⟩).val :=
  dot_S2048x64_S512x64_S2048x512_1_1_0_0_n_n.lhsIdx_val_of_single rfl i q
theorem rhs_qk_0 (i : S2048x512.Idx) (q : dot_S2048x64_S512x64_S2048x512_1_1_0_0_n_n.contr.Idx) :
    (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem rhs_qk_1 (i : S2048x512.Idx) (q : dot_S2048x64_S512x64_S2048x512_1_1_0_0_n_n.contr.Idx) :
    (dot_S2048x64_S512x64_S2048x512_1_1_0_0_n_n.rhsIdx i q 1).val = (q ⟨0, by decide⟩).val :=
  dot_S2048x64_S512x64_S2048x512_1_1_0_0_n_n.rhsIdx_val_of_single rfl i q

/-- The product of a [2048, 64] array by the transpose of a [512, 64] one, into a zero accumulator, entry by entry. -/
theorem matmul_qk {φ₁ φ₂ : FTy} (l : FVec Ideal S2048x64 φ₁) (r : FVec Ideal S512x64 φ₂) (a : Fin 2048) (b : Fin 512) :
    matmul dot_S2048x64_S512x64_S2048x512_1_1_0_0_n_n none l r (constant (F := Ideal) S2048x512 .f32 0x00000000#32) (ix2 a b)
      = ∑ k : Fin 64, l (ix2 a k) * r (ix2 b k) := by
  simp only [matmul]
  rw [Ideal.matmul_constant_zero_apply, ← Equiv.sum_comp (contrEquiv1 dot_S2048x64_S512x64_S2048x512_1_1_0_0_n_n 64 rfl rfl).symm]
  refine Finset.sum_congr rfl fun k _ => ?_
  have hk := contrEquiv1_symm_val dot_S2048x64_S512x64_S2048x512_1_1_0_0_n_n 64 rfl rfl k
  have el : dot_S2048x64_S512x64_S2048x512_1_1_0_0_n_n.lhsIdx (ix2 a b) ((contrEquiv1 dot_S2048x64_S512x64_S2048x512_1_1_0_0_n_n 64 rfl rfl).symm k) = ix2 a k := funext fun c => Fin.ext (by
    match c with
    | ⟨0, _⟩ => exact lhs_qk_0 _ _
    | ⟨1, _⟩ => exact (lhs_qk_1 _ _).trans hk)
  have er : dot_S2048x64_S512x64_S2048x512_1_1_0_0_n_n.rhsIdx (ix2 a b) ((contrEquiv1 dot_S2048x64_S512x64_S2048x512_1_1_0_0_n_n 64 rfl rfl).symm k) = ix2 b k := funext fun c => Fin.ext (by
    match c with
    | ⟨0, _⟩ => exact rhs_qk_0 _ _
    | ⟨1, _⟩ => exact (rhs_qk_1 _ _).trans hk)
  rw [el, er]

/-! ### The product of a [2048, 512] by a [512, 64] array -/

theorem lhs_pv_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem lhs_pv_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem rhs_pv_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem rhs_pv_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The product of a [2048, 512] by a [512, 64] array, into a zero accumulator, entry by entry. -/
theorem matmul_pv {φ₁ φ₂ : FTy} (l : FVec Ideal S2048x512 φ₁) (r : FVec Ideal S512x64 φ₂) (a : Fin 2048) (b : Fin 64) :
    matmul dot_S2048x512_S512x64_S2048x64_1_0_0_1_n_n none l r (constant (F := Ideal) S2048x64 .f32 0x00000000#32) (ix2 a b)
      = ∑ k : Fin 512, l (ix2 a k) * r (ix2 k b) := by
  simp only [matmul]
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 a b) ((contrEquiv1 dot_S2048x512_S512x64_S2048x64_1_0_0_1_n_n 512 rfl rfl).symm k) = ix2 a k := funext fun c => Fin.ext (by
    match c with
    | ⟨0, _⟩ => exact lhs_pv_0 _ _
    | ⟨1, _⟩ => exact (lhs_pv_1 _ _).trans hk)
  have er : dot_S2048x512_S512x64_S2048x64_1_0_0_1_n_n.rhsIdx (ix2 a b) ((contrEquiv1 dot_S2048x512_S512x64_S2048x64_1_0_0_1_n_n 512 rfl rfl).symm k) = ix2 k b := funext fun c => Fin.ext (by
    match c with
    | ⟨0, _⟩ => exact (rhs_pv_0 _ _).trans hk
    | ⟨1, _⟩ => exact rhs_pv_1 _ _)
  rw [el, er]

end Cert.KernelIdeal.Pay

end
-- ==== Proof.KI.PayAcc.lean ====
import proofs.«135365_j10101763080424_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«135365_j10101763080424_2_alg».proof.Proof.KI.PayLayout
import proofs.«135365_j10101763080424_2_alg».proof.Proof.KI.PayMatmul

noncomputable section

namespace Cert.KernelIdeal.Pay

open Cert.KernelIdeal Cert.KernelIdeal.Gen Idealize.ShloMosaic Idealize.ShloMosaic.ValueIdx

/-! ## The weighted sum's update -/

/-- The new weighted sum: the old one rescaled by the row's factor, plus the tile's weights times its value rows. -/
theorem pay2 (v15 : FVec Ideal S512x64 .bf16) (v26 : FVec Ideal S2048x1 .f32) (v29 : FVec Ideal S2048x512 .f32)
    (acc : Vec Ideal S2048x64 .f32) (t : Fin 2048) (h : Fin 64) :
    k0_pay2 v15 v26 v29 acc (ix2 t h)
      = v26 (ix2 t (0 : Fin 1)) * acc (ix2 t h) + ∑ r : Fin 512, v29 (ix2 t r) * v15 (ix2 r h) := by
  unfold k0_pay2
  rw [shapeCast_self]
  refine (addf_apply _ _ _).trans ?_
  refine congrArg₂ (· + ·) ?_ ?_
  · refine (mulf_apply _ _ _).trans ?_
    exact congrArg (· * acc (ix2 t h)) (broadcastTo_a1_ab_apply v26 _ t h)
  · exact matmul_pv _ v15 t h

end Cert.KernelIdeal.Pay

end
-- ==== Proof.KI.PayProj.lean ====
import proofs.«135365_j10101763080424_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«135365_j10101763080424_2_alg».proof.Proof.KI.PayMatmul

noncomputable section

namespace Cert.KernelIdeal.Pay

open Cert.KernelIdeal Cert.KernelIdeal.Gen Idealize.ShloMosaic Idealize.ShloMosaic.ValueIdx

/-! ## The projections: activations times a weight matrix -/

/-- A tile's key/value tokens with the leading unit axis dropped. -/
theorem pay9 (x1 : Vec Ideal S1x512x1024 .f32) (r : Fin 512) (c : Fin 1024) :
    k0_pay9 x1 (ix2 r c) = x1 (ix3 (0 : Fin 1) r c) := by
  unfold k0_pay9
  exact shapeCast_1ab_ab_apply x1 _ r c

/-- The query projection of the sequence's 2048 tokens. -/
theorem pay5 (x0 : Vec Ideal S1x2048x1024 .f32) (x2 : Vec Ideal S1024x64 .f32) (t : Fin 2048) (h : Fin 64) :
    k0_pay5 x0 x2 (ix2 t h) = ∑ c : Fin 1024, x0 (ix3 (0 : Fin 1) t c) * x2 (ix2 c h) := by
  unfold k0_pay5
  simp only [shapeCast_self]
  refine (matmul_q _ _ t h).trans ?_
  exact Finset.sum_congr rfl fun c _ => congrArg (· * x2 (ix2 c h)) (shapeCast_1ab_ab_apply x0 _ t c)

/-- The value projection of a tile's 512 tokens. -/
theorem pay10 (x1 : Vec Ideal S1x512x1024 .f32) (x4 : Vec Ideal S1024x64 .f32) (r : Fin 512) (h : Fin 64) :
    k0_pay10 x1 x4 (ix2 r h) = ∑ c : Fin 1024, x1 (ix3 (0 : Fin 1) r c) * x4 (ix2 c h) := by
  unfold k0_pay10
  simp only [shapeCast_self]
  refine (matmul_kv _ _ r h).trans ?_
  exact Finset.sum_congr rfl fun c _ => congrArg (· * x4 (ix2 c h)) (pay9 x1 r c)

end Cert.KernelIdeal.Pay

end
-- ==== Proof.KI.PayScore.lean ====
import proofs.«135365_j10101763080424_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«135365_j10101763080424_2_alg».proof.Proof.KI.PayMatmul
import proofs.«135365_j10101763080424_2_alg».proof.Proof.KI.PayProj

noncomputable section

namespace Cert.KernelIdeal.Pay

open Cert.KernelIdeal Cert.KernelIdeal.Gen Idealize.ShloMosaic Idealize.ShloMosaic.ValueIdx

/-! ## The scaled scores of a tile -/

/-- The tile's scaled scores: each query row against each of the tile's key projections, times 1/32. -/
theorem pay11 (x1 : Vec Ideal S1x512x1024 .f32) (x3 : Vec Ideal S1024x64 .f32) (q : Vec Ideal S2048x64 .bf16)
    (t : Fin 2048) (r : Fin 512) :
    k0_pay11 x1 x3 q (ix2 t r)
      = (∑ h : Fin 64, q (ix2 t h) * (∑ c : Fin 1024, x1 (ix3 (0 : Fin 1) r c) * x3 (ix2 c h)))
          * Ideal.ofBits .f32 0x3D000000#32 := by
  unfold k0_pay11
  simp only [shapeCast_self]
  refine (mulf_apply _ _ _).trans ?_
  refine congrArg₂ (· * ·) ?_ rfl
  refine (matmul_qk q _ t r).trans ?_
  refine Finset.sum_congr rfl fun h _ => congrArg (q (ix2 t h) * ·) ?_
  refine (matmul_kv _ _ r h).trans ?_
  exact Finset.sum_congr rfl fun c _ => congrArg (· * x3 (ix2 c h)) (pay9 x1 r c)

end Cert.KernelIdeal.Pay

end
-- ==== Proof.KI.ValueStep.lean ====
/-
  One update step of the body's arithmetic is one step of the one-pass softmax.

  Over any blocks that read as the specification's data — the tile's tokens as rows `tileTok j r` of sequence `b`,
  the two weight blocks as the key and value weights transposed, the carried queries as the query projection, the
  carried maximum, normaliser and weighted sum as a row state `ρ t` for every query row `t` — the payloads the body
  stores are, row by row, the fields of `Row.step` on the tile's scores and values from `ρ t`, and the output
  payload is the new weighted sum over the new normaliser. Pure rewriting: each payload read at an index, the blocks
  replaced by what they read as.
-/
import proofs.«135365_j10101763080424_2_alg».proof.Proof.Spec
import proofs.«135365_j10101763080424_2_alg».proof.Proof.KI.PayPointwise
import proofs.«135365_j10101763080424_2_alg».proof.Proof.KI.PayReduce
import proofs.«135365_j10101763080424_2_alg».proof.Proof.KI.PayAcc
import proofs.«135365_j10101763080424_2_alg».proof.Proof.KI.PayProj
import proofs.«135365_j10101763080424_2_alg».proof.Proof.KI.PayScore

noncomputable section

namespace Cert.KernelIdeal.Step

open Cert.KernelIdeal Cert.KernelIdeal.Gen Idealize.ShloMosaic Idealize.ShloMosaic.ValueIdx
open Cert.Attn

/-- The scale the body multiplies the scores by: the word of 1/32. -/
abbrev SC : EReal := Ideal.ofBits .f32 0x3D000000#32

/-- The query projection from the sequence's block and the query-weight block. -/
theorem q_eq (x0 : Vec Ideal S1x2048x1024 .f32) (x2 : Vec Ideal S1024x64 .f32) (x : Act) (wq : Wt) (b : Fin 8)
    (hx0 : ∀ r cc, x0 (ix3 (0 : Fin 1) r cc) = x b r cc) (hx2 : ∀ cc h, x2 (ix2 cc h) = wq h cc)
    (t : Fin 2048) (h : Fin 64) : k0_pay5 x0 x2 (ix2 t h) = proj x wq b t h :=
  (Pay.pay5 x0 x2 t h).trans (Finset.sum_congr rfl fun cc _ => congrArg₂ (· * ·) (hx0 t cc) (hx2 cc h))

section
variable (x1 : Vec Ideal S1x512x1024 .f32) (x3 x4 : Vec Ideal S1024x64 .f32) (q : Vec Ideal S2048x64 .bf16)
  (mo lo : Vec Ideal S2048x1 .f32) (acc : Vec Ideal S2048x64 .f32)
  (x : Act) (wk wq wv : Wt) (b : Fin 8) (j : Fin 4) (ρ : Fin 2048 → Row)
  (hx1 : ∀ r cc, x1 (ix3 (0 : Fin 1) r cc) = x b (tileTok j r) cc)
  (hx3 : ∀ cc h, x3 (ix2 cc h) = wk h cc)
  (hx4 : ∀ cc h, x4 (ix2 cc h) = wv h cc)
  (hq : ∀ t h, q (ix2 t h) = proj x wq b t h)
  (hm : ∀ t, mo (ix2 t (0 : Fin 1)) = (ρ t).m)
  (hl : ∀ t, lo (ix2 t (0 : Fin 1)) = (ρ t).l)
  (hacc : ∀ t h, acc (ix2 t h) = (ρ t).acc h)

include hx1 hx3 hq in
/-- The tile's scores. -/
theorem score_eq (t : Fin 2048) (r : Fin 512) :
    k0_pay11 x1 x3 q (ix2 t r) = score SC x wq wk b t (tileTok j r) :=
  (Pay.pay11 x1 x3 q t r).trans (congrArg (· * SC) (Finset.sum_congr rfl fun h _ =>
    congrArg₂ (· * ·) (hq t h) (Finset.sum_congr rfl fun cc _ => congrArg₂ (· * ·) (hx1 r cc) (hx3 cc h))))

include hx1 hx4 in
/-- The tile's values. -/
theorem v_eq (r : Fin 512) (h : Fin 64) : k0_pay10 x1 x4 (ix2 r h) = proj x wv b (tileTok j r) h :=
  (Pay.pay10 x1 x4 r h).trans (Finset.sum_congr rfl fun cc _ => congrArg₂ (· * ·) (hx1 r cc) (hx4 cc h))

include hx1 hx3 hq hm in
/-- The new running maximum. -/
theorem newmax_eq (t : Fin 2048) :
    k0_pay12 x1 x3 q mo (ix2 t (0 : Fin 1))
      = max (ρ t).m (Finset.univ.sup fun r : Fin 512 => score SC x wq wk b t (tileTok j r)) := by
  rw [Pay.pay12, hm]
  exact congrArg (max (ρ t).m) (congrArg Finset.univ.sup (funext fun r => score_eq x1 x3 q x wk wq b j hx1 hx3 hq t r))

include hx1 hx3 hq hm in
/-- The maximum as stored. -/
theorem step_m (t : Fin 2048) :
    k0_pay3 (k0_pay12 x1 x3 q mo) (ix2 t (0 : Fin 1))
      = (Row.step (fun r => score SC x wq wk b t (tileTok j r)) (fun r h => proj x wv b (tileTok j r) h) (ρ t)).m := by
  rw [Pay.pay3]
  exact newmax_eq x1 x3 q mo x wk wq b j ρ hx1 hx3 hq hm t

include hx1 hx3 hq hm in
/-- The factor that rescales what was carried. -/
theorem a_eq (t : Fin 2048) :
    k0_pay13 x1 x3 q mo mo (ix2 t (0 : Fin 1))
      = Ideal.exp ((ρ t).m - max (ρ t).m (Finset.univ.sup fun r : Fin 512 => score SC x wq wk b t (tileTok j r))) := by
  rw [Pay.pay13, hm, newmax_eq x1 x3 q mo x wk wq b j ρ hx1 hx3 hq hm t]

include hx1 hx3 hq hm in
/-- The tile's weights under the new maximum. -/
theorem w_eq (t : Fin 2048) (r : Fin 512) :
    k0_pay14 x1 x3 q mo (ix2 t r)
      = Ideal.exp (score SC x wq wk b t (tileTok j r)
          - max (ρ t).m (Finset.univ.sup fun r : Fin 512 => score SC x wq wk b t (tileTok j r))) := by
  rw [Pay.pay14, score_eq x1 x3 q x wk wq b j hx1 hx3 hq t r, newmax_eq x1 x3 q mo x wk wq b j ρ hx1 hx3 hq hm t]

include hx1 hx3 hq hm hl in
/-- The new normaliser. -/
theorem step_l (t : Fin 2048) :
    k0_pay1 (k0_pay15 x1 x3 q mo mo lo) (k0_pay16 x1 x3 q mo) (ix2 t (0 : Fin 1))
      = (Row.step (fun r => score SC x wq wk b t (tileTok j r)) (fun r h => proj x wv b (tileTok j r) h) (ρ t)).l := by
  rw [Pay.pay1, Pay.pay15, Pay.pay16, a_eq x1 x3 q mo x wk wq b j ρ hx1 hx3 hq hm t, hl]
  exact congrArg (_ + ·) (Finset.sum_congr rfl fun r _ => w_eq x1 x3 q mo x wk wq b j ρ hx1 hx3 hq hm t r)

include hx1 hx3 hx4 hq hm hacc in
/-- The new weighted sum. -/
theorem step_acc (t : Fin 2048) (h : Fin 64) :
    k0_pay2 (k0_pay10 x1 x4) (k0_pay13 x1 x3 q mo mo) (k0_pay14 x1 x3 q mo) acc (ix2 t h)
      = (Row.step (fun r => score SC x wq wk b t (tileTok j r)) (fun r h => proj x wv b (tileTok j r) h) (ρ t)).acc h := by
  rw [Pay.pay2, a_eq x1 x3 q mo x wk wq b j ρ hx1 hx3 hq hm t, hacc]
  exact congrArg (_ + ·) (Finset.sum_congr rfl fun r _ =>
    congrArg₂ (· * ·) (w_eq x1 x3 q mo x wk wq b j ρ hx1 hx3 hq hm t r) (v_eq x1 x4 x wv b j hx1 hx4 r h))

include hx1 hx3 hx4 hq hm hl hacc in
/-- The output block: the new weighted sum over the new normaliser. -/
theorem step_out (t : Fin 2048) (h : Fin 64) :
    k0_pay4 (k0_pay2 (k0_pay10 x1 x4) (k0_pay13 x1 x3 q mo mo) (k0_pay14 x1 x3 q mo) acc)
        (k0_pay1 (k0_pay15 x1 x3 q mo mo lo) (k0_pay16 x1 x3 q mo)) (ix3 (0 : Fin 1) t h)
      = Ideal.div
          ((Row.step (fun r => score SC x wq wk b t (tileTok j r)) (fun r h => proj x wv b (tileTok j r) h) (ρ t)).acc h)
          (Row.step (fun r => score SC x wq wk b t (tileTok j r)) (fun r h => proj x wv b (tileTok j r) h) (ρ t)).l := by
  rw [Pay.pay4, step_acc x1 x3 x4 q mo acc x wk wq wv b j ρ hx1 hx3 hx4 hq hm hacc t h,
    step_l x1 x3 q mo lo x wk wq wv b j ρ hx1 hx3 hq hm hl t]

end

end Cert.KernelIdeal.Step

end
-- ==== Proof.KI.Value.lean ====
/-
  The invariant of the attention kernel over its 8 × 4 grid, and the result array after the run.

  After the body at grid point `n` — sequence `b = n / 4`, key/value tile `kv = n % 4` — the carried buffers hold,
  row by row, the state of the one-pass softmax after `kv + 1` tiles: the queries are the query projection of the
  sequence, and the running maximum, normaliser and weighted sum of query row `t` are the fields of
  `rowAfter … b t (kv + 1)`. At a sequence's last tile the output block is the one-pass form's result. By
  induction along the grid: a first tile takes one step from the reset values, which are `Row.init`; a later tile
  takes one step from what the tile before left, which is the induction hypothesis for the same sequence.
-/
import proofs.«135365_j10101763080424_2_alg».proof.Proof.KI.Pieces
import proofs.«135365_j10101763080424_2_alg».proof.Proof.KI.Blocks
import proofs.«135365_j10101763080424_2_alg».proof.Proof.KI.ValueStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open Cert.Attn (proj score rowAfter onlineOut tileTok Row)

variable (m : (ℓ : Loc nD τ sig) → Buf (Elt Ideal) ℓ) (c : Dev nD)

/-! ## The specification's data, read off the launch memory -/

/-- The activations. -/
abbrev act : Cert.Attn.Act :=
  fun b t cc => (m ((c : Thread nD τ).loc main_arg0) : S8x2048x1024.Idx → EReal) (ix3 b t cc)
/-- The key weights. -/
abbrev wK : Cert.Attn.Wt := fun h cc => (m ((c : Thread nD τ).loc main_arg1) : S64x1024.Idx → EReal) (ix2 h cc)
/-- The query weights. -/
abbrev wQ : Cert.Attn.Wt := fun h cc => (m ((c : Thread nD τ).loc main_arg2) : S64x1024.Idx → EReal) (ix2 h cc)
/-- The value weights. -/
abbrev wV : Cert.Attn.Wt := fun h cc => (m ((c : Thread nD τ).loc main_arg3) : S64x1024.Idx → EReal) (ix2 h cc)
/-- The finite stand-in for minus infinity the running maximum starts at. -/
abbrev NEG : EReal := Ideal.ofBits .f32 0xFF333332#32
/-- The scale: the word of 1/32. -/
abbrev SC : EReal := Ideal.ofBits .f32 0x3D000000#32

/-! ## The input blocks as that data -/

/-- Window 0's block at a point of sequence `b` is the sequence's activations. -/
theorem x0_eq (t : Fin cfg0.N) (b : Fin 8) (hb : b.val = t.val / 4) (r : Fin 2048) (cc : Fin 1024) :
    (iblk m c 0 t : Vec Ideal S1x2048x1024 .f32) (ix3 0 r cc) = act m c b r cc := by
  refine (blk0 m c t r cc).trans ?_
  show (m ((c : Thread nD τ).loc main_arg0) : S8x2048x1024.Idx → EReal) _
    = (m ((c : Thread nD τ).loc main_arg0) : S8x2048x1024.Idx → EReal) (ix3 b r cc)
  refine congrArg _ (funext fun a => Fin.ext ?_)
  match a with
  | ⟨0, _⟩ => exact hb.symm
  | ⟨1, _⟩ => rfl
  | ⟨2, _⟩ => rfl

/-- Window 1's block at a point of sequence `b` and tile `j` is the tile's tokens' activations. -/
theorem x1_eq (t : Fin cfg0.N) (b : Fin 8) (hb : b.val = t.val / 4) (j : Fin 4) (hj : j.val = t.val % 4)
    (r : Fin 512) (cc : Fin 1024) :
    (iblk m c 1 t : Vec Ideal S1x512x1024 .f32) (ix3 0 r cc) = act m c b (tileTok j r) cc := by
  refine (blk1 m c t r cc).trans ?_
  show (m ((c : Thread nD τ).loc main_arg0) : S8x2048x1024.Idx → EReal) _
    = (m ((c : Thread nD τ).loc main_arg0) : S8x2048x1024.Idx → EReal) (ix3 b (tileTok j r) cc)
  refine congrArg _ (funext fun a => Fin.ext ?_)
  match a with
  | ⟨0, _⟩ => exact hb.symm
  | ⟨1, _⟩ => show 512 * (t.val % 4) + r.val = 512 * j.val + r.val; rw [hj]
  | ⟨2, _⟩ => rfl

/-! ## The invariant -/

/-- What the carried buffers hold after the body at point `n`, for sequence `b` and tile `kv`. -/
def Inv (n : ℕ) (hn : n < cfg0.N) (b : Fin 8) (kv : ℕ) : Prop :=
  (∀ (t : Fin 2048) (h : Fin 64), (outsAt0 m c n hn).2.1 (ix2 t h) = proj (act m c) (wQ m c) b t h)
  ∧ (∀ t : Fin 2048, (outsAt0 m c n hn).2.2.1 (ix2 t (0 : Fin 1))
      = (rowAfter NEG SC (act m c) (wK m c) (wQ m c) (wV m c) b t (kv + 1)).m)
  ∧ (∀ t : Fin 2048, (outsAt0 m c n hn).2.2.2.1 (ix2 t (0 : Fin 1))
      = (rowAfter NEG SC (act m c) (wK m c) (wQ m c) (wV m c) b t (kv + 1)).l)
  ∧ (∀ (t : Fin 2048) (h : Fin 64), (outsAt0 m c n hn).2.2.2.2 (ix2 t h)
      = (rowAfter NEG SC (act m c) (wK m c) (wQ m c) (wV m c) b t (kv + 1)).acc h)
  ∧ (kv = 3 → ∀ (t : Fin 2048) (h : Fin 64), (outsAt0 m c n hn).1 (ix3 (0 : Fin 1) t h)
      = onlineOut NEG SC (act m c) (wK m c) (wQ m c) (wV m c) b t h)

/-- A first tile: one step from the reset values. -/
theorem inv_A (t : Fin cfg0.N) (h0 : t.val % 4 = 0) (b : Fin 8) (hb : b.val = t.val / 4) :
    Inv m c t.val t.isLt b 0 := by
  have h1 : ¬t.val % 4 = 3 := by omega
  have hx0 := x0_eq m c t b hb
  have hx1 := x1_eq m c t b hb ⟨0 % 4, Nat.mod_lt _ (by norm_num)⟩ (by show 0 % 4 = t.val % 4; omega)
  have hx2 : ∀ cc h, (iblk m c 2 t : Vec Ideal S1024x64 .f32) (ix2 cc h) = wQ m c h cc := fun cc h => blk2 m c t cc h
  have hx3 : ∀ cc h, (iblk m c 3 t : Vec Ideal S1024x64 .f32) (ix2 cc h) = wK m c h cc := fun cc h => blk3 m c t cc h
  have hx4 : ∀ cc h, (iblk m c 4 t : Vec Ideal S1024x64 .f32) (ix2 cc h) = wV m c h cc := fun cc h => blk4 m c t cc h
  have hq : ∀ tt h, k0_pay5 (iblk m c 0 t) (iblk m c 2 t) (ix2 tt h) = proj (act m c) (wQ m c) b tt h :=
    Step.q_eq (iblk m c 0 t) (iblk m c 2 t) (act m c) (wQ m c) b hx0 hx2
  have hm : ∀ tt : Fin 2048, k0_pay6 (F := Ideal) (ix2 tt (0 : Fin 1)) = (Row.init NEG).m := fun tt => Pay.pay6 _
  have hl : ∀ tt : Fin 2048, k0_pay7 (F := Ideal) (ix2 tt (0 : Fin 1)) = (Row.init NEG).l := fun tt => Pay.pay7 _
  have hacc : ∀ (tt : Fin 2048) (h : Fin 64), k0_pay8 (F := Ideal) (ix2 tt h) = (Row.init NEG).acc h :=
    fun tt h => Pay.pay8 _
  unfold Inv
  rw [outsAt0_A m c t h0 h1]
  refine ⟨fun tt h => ?_, fun tt => ?_, fun tt => ?_, fun tt h => ?_, fun hk => absurd hk (by decide)⟩
  · rw [outA_0 m c t h0 h1]; exact hq tt h
  · rw [outA_1 m c t h0 h1]
    exact Step.step_m (iblk m c 1 t) (iblk m c 3 t) (k0_pay5 (iblk m c 0 t) (iblk m c 2 t)) (k0_pay6 (F := Ideal))
      (act m c) (wK m c) (wQ m c) (wV m c) b ⟨0 % 4, Nat.mod_lt _ (by norm_num)⟩ (fun _ => Row.init NEG) hx1 hx3 hq hm tt
  · rw [outA_2 m c t h0 h1]
    exact Step.step_l (iblk m c 1 t) (iblk m c 3 t) (k0_pay5 (iblk m c 0 t) (iblk m c 2 t)) (k0_pay6 (F := Ideal)) (k0_pay7 (F := Ideal))
      (act m c) (wK m c) (wQ m c) (wV m c) b ⟨0 % 4, Nat.mod_lt _ (by norm_num)⟩ (fun _ => Row.init NEG) hx1 hx3 hq hm hl tt
  · rw [outA_3 m c t h0 h1]
    exact Step.step_acc (iblk m c 1 t) (iblk m c 3 t) (iblk m c 4 t) (k0_pay5 (iblk m c 0 t) (iblk m c 2 t)) (k0_pay6 (F := Ideal)) (k0_pay8 (F := Ideal))
      (act m c) (wK m c) (wQ m c) (wV m c) b ⟨0 % 4, Nat.mod_lt _ (by norm_num)⟩ (fun _ => Row.init NEG) hx1 hx3 hx4 hq hm hacc tt h

/-- A later tile: one step from what the tile before left. -/
theorem inv_BC (t : Fin cfg0.N) (h0 : ¬t.val % 4 = 0) (b : Fin 8) (hb : b.val = t.val / 4) (kv : ℕ)
    (hkv : kv + 1 = t.val % 4)
    (ih : Inv m c (t.val - 1) (Nat.lt_of_le_of_lt (Nat.sub_le _ _) t.isLt) b kv) :
    Inv m c t.val t.isLt b (kv + 1) := by
  obtain ⟨iq, im, il, iacc, -⟩ := ih
  have hx1 := x1_eq m c t b hb ⟨(kv + 1) % 4, Nat.mod_lt _ (by norm_num)⟩ (by show (kv + 1) % 4 = t.val % 4; omega)
  have hx3 : ∀ cc h, (iblk m c 3 t : Vec Ideal S1024x64 .f32) (ix2 cc h) = wK m c h cc := fun cc h => blk3 m c t cc h
  have hx4 : ∀ cc h, (iblk m c 4 t : Vec Ideal S1024x64 .f32) (ix2 cc h) = wV m c h cc := fun cc h => blk4 m c t cc h
  unfold Inv
  by_cases h1 : t.val % 4 = 3
  · rw [outsAt0_C m c t h0 h1]
    refine ⟨fun tt h => ?_, fun tt => ?_, fun tt => ?_, fun tt h => ?_, fun _ tt h => ?_⟩
    · rw [outC_0 m c t h0 h1]; exact iq tt h
    · rw [outC_1 m c t h0 h1]
      exact Step.step_m (iblk m c 1 t) (iblk m c 3 t) _ _ (act m c) (wK m c) (wQ m c) (wV m c) b
        ⟨(kv + 1) % 4, Nat.mod_lt _ (by norm_num)⟩
        (fun tt => rowAfter NEG SC (act m c) (wK m c) (wQ m c) (wV m c) b tt (kv + 1)) hx1 hx3 iq im tt
    · rw [outC_2 m c t h0 h1]
      exact Step.step_l (iblk m c 1 t) (iblk m c 3 t) _ _ _ (act m c) (wK m c) (wQ m c) (wV m c) b
        ⟨(kv + 1) % 4, Nat.mod_lt _ (by norm_num)⟩
        (fun tt => rowAfter NEG SC (act m c) (wK m c) (wQ m c) (wV m c) b tt (kv + 1)) hx1 hx3 iq im il tt
    · rw [outC_3 m c t h0 h1]
      exact Step.step_acc (iblk m c 1 t) (iblk m c 3 t) (iblk m c 4 t) _ _ _ (act m c) (wK m c) (wQ m c) (wV m c) b
        ⟨(kv + 1) % 4, Nat.mod_lt _ (by norm_num)⟩
        (fun tt => rowAfter NEG SC (act m c) (wK m c) (wQ m c) (wV m c) b tt (kv + 1)) hx1 hx3 hx4 iq im iacc tt h
    · rw [outC_5 m c t h0 h1]
      obtain rfl : kv = 2 := by omega
      exact Step.step_out (iblk m c 1 t) (iblk m c 3 t) (iblk m c 4 t) _ _ _ _ (act m c) (wK m c) (wQ m c) (wV m c) b
        ⟨(2 + 1) % 4, Nat.mod_lt _ (by norm_num)⟩
        (fun tt => rowAfter NEG SC (act m c) (wK m c) (wQ m c) (wV m c) b tt (2 + 1)) hx1 hx3 hx4 iq im il iacc tt h
  · rw [outsAt0_B m c t h0 h1]
    refine ⟨fun tt h => ?_, fun tt => ?_, fun tt => ?_, fun tt h => ?_, fun hk => absurd hk (by omega)⟩
    · rw [outB_0 m c t h0 h1]; exact iq tt h
    · rw [outB_1 m c t h0 h1]
      exact Step.step_m (iblk m c 1 t) (iblk m c 3 t) _ _ (act m c) (wK m c) (wQ m c) (wV m c) b
        ⟨(kv + 1) % 4, Nat.mod_lt _ (by norm_num)⟩
        (fun tt => rowAfter NEG SC (act m c) (wK m c) (wQ m c) (wV m c) b tt (kv + 1)) hx1 hx3 iq im tt
    · rw [outB_2 m c t h0 h1]
      exact Step.step_l (iblk m c 1 t) (iblk m c 3 t) _ _ _ (act m c) (wK m c) (wQ m c) (wV m c) b
        ⟨(kv + 1) % 4, Nat.mod_lt _ (by norm_num)⟩
        (fun tt => rowAfter NEG SC (act m c) (wK m c) (wQ m c) (wV m c) b tt (kv + 1)) hx1 hx3 iq im il tt
    · rw [outB_3 m c t h0 h1]
      exact Step.step_acc (iblk m c 1 t) (iblk m c 3 t) (iblk m c 4 t) _ _ _ (act m c) (wK m c) (wQ m c) (wV m c) b
        ⟨(kv + 1) % 4, Nat.mod_lt _ (by norm_num)⟩
        (fun tt => rowAfter NEG SC (act m c) (wK m c) (wQ m c) (wV m c) b tt (kv + 1)) hx1 hx3 hx4 iq im iacc tt h

/-- The invariant at every point, for its sequence and tile, by induction along the grid. -/
theorem inv_aux (n : ℕ) : ∀ (hn : n < cfg0.N) (b : Fin 8) (kv : ℕ), b.val = n / 4 → kv = n % 4 → Inv m c n hn b kv := by
  induction n with
  | zero =>
    intro hn b kv hb hkv
    obtain rfl : kv = 0 := by omega
    exact inv_A m c ⟨0, hn⟩ (Nat.zero_mod _) b hb
  | succ n ih =>
    intro hn b kv hb hkv
    by_cases h0 : (n + 1) % 4 = 0
    · obtain rfl : kv = 0 := by omega
      exact inv_A m c ⟨n + 1, hn⟩ h0 b hb
    · obtain ⟨kv', rfl⟩ : ∃ kv', kv = kv' + 1 := ⟨kv - 1, by omega⟩
      exact inv_BC m c ⟨n + 1, hn⟩ h0 b hb kv' (by show kv' + 1 = (n + 1) % 4; omega)
        (ih (Nat.lt_of_succ_lt hn) b kv' (by omega) (by omega))

/-- THE INVARIANT: after the body at point `n`, the carried buffers are the one-pass state of sequence `n / 4` after
    `n % 4 + 1` tiles, and at a last tile the output block is the one-pass form's result. -/
theorem inv (n : ℕ) (hn : n < cfg0.N) :
    (∀ (t : Fin 2048) (h : Fin 64), (outsAt0 m c n hn).2.1 (ix2 t h)
        = proj (act m c) (wQ m c) ⟨n / 4, by have := lt_of_lt_of_eq hn N_0; omega⟩ t h)
    ∧ (∀ t : Fin 2048, (outsAt0 m c n hn).2.2.1 (ix2 t (0 : Fin 1))
        = (rowAfter NEG SC (act m c) (wK m c) (wQ m c) (wV m c) ⟨n / 4, by have := lt_of_lt_of_eq hn N_0; omega⟩ t (n % 4 + 1)).m)
    ∧ (∀ t : Fin 2048, (outsAt0 m c n hn).2.2.2.1 (ix2 t (0 : Fin 1))
        = (rowAfter NEG SC (act m c) (wK m c) (wQ m c) (wV m c) ⟨n / 4, by have := lt_of_lt_of_eq hn N_0; omega⟩ t (n % 4 + 1)).l)
    ∧ (∀ (t : Fin 2048) (h : Fin 64), (outsAt0 m c n hn).2.2.2.2 (ix2 t h)
        = (rowAfter NEG SC (act m c) (wK m c) (wQ m c) (wV m c) ⟨n / 4, by have := lt_of_lt_of_eq hn N_0; omega⟩ t (n % 4 + 1)).acc h)
    ∧ (n % 4 = 3 → ∀ (t : Fin 2048) (h : Fin 64), (outsAt0 m c n hn).1 (ix3 (0 : Fin 1) t h)
        = onlineOut NEG SC (act m c) (wK m c) (wQ m c) (wV m c) ⟨n / 4, by have := lt_of_lt_of_eq hn N_0; omega⟩ t h) :=
  inv_aux m c n hn ⟨n / 4, by have := lt_of_lt_of_eq hn N_0; omega⟩ (n % 4) rfl rfl

/-! ## The result array -/

/-- THE RESULT ARRAY after the run is the one-pass form of the launch arrays, index by index. -/
theorem out_eq : (dats m 0 c).arrAt 5 cfg0.N
    = fun i : S8x2048x64.Idx => onlineOut NEG SC (act m c) (wK m c) (wQ m c) (wV m c) (i 0) (i 1) (i 2) := by
  refine arrAt5_of (dats m 0 c) _ fun t hf r h => ?_
  have h3 : t.val % 4 = 3 := (flush0_5 t).mp hf
  obtain ⟨-, -, -, -, h5⟩ := inv m c t.val t.isLt
  refine Eq.trans ?_ (h5 h3 r h)
  show (dats m 0 c).after 5 t _ = _
  rw [after0_5]
  exact congrArg _ (funext fun a => Fin.ext rfl)

end Cert.KernelIdeal.Hand

end
-- ==== Proof.RefStages.lean ====
import proofs.«135365_j10101763080424_2_alg».proof.Proof.Gen.ReferenceIdeal.Read
import proofs.«135365_j10101763080424_2_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Read Idealize.ShloMosaic Idealize.ShloMosaic.ValueIdx Cert.Attn

/-- The activations as a function of three coordinates. -/
abbrev act (x0 : (⟨S8x2048x1024, .f32⟩ : BufTy).Contents (Elt Ideal)) : Act := fun b t c => x0 (ix3 b t c)
/-- A weight array as a function of two coordinates. -/
abbrev wt (w : (⟨S64x1024, .f32⟩ : BufTy).Contents (Elt Ideal)) : Wt := fun h c => w (ix2 h c)

theorem lidx_proj (b : Fin 8) (t : Fin 2048) (h : Fin 64) (c : Fin 1024) :
    lidx_main_v0 (ix3 b t h) c = ix3 b t c :=
  funext fun a => Fin.ext (by match a with | ⟨0, _⟩ => rfl | ⟨1, _⟩ => rfl | ⟨2, _⟩ => rfl)

theorem ridx_proj (b : Fin 8) (t : Fin 2048) (h : Fin 64) (c : Fin 1024) :
    ridx_main_v0 (ix3 b t h) c = ix2 h c :=
  funext fun a => Fin.ext (by match a with | ⟨0, _⟩ => rfl | ⟨1, _⟩ => rfl)

/-- The key projection. -/
theorem v0_eq (x0 : (⟨S8x2048x1024, .f32⟩ : BufTy).Contents (Elt Ideal)) (x1 : (⟨S64x1024, .f32⟩ : BufTy).Contents (Elt Ideal))
    (b : Fin 8) (t : Fin 2048) (h : Fin 64) :
    val_main_v0 (F := Ideal) x0 x1 (ix3 b t h) = proj (act x0) (wt x1) b t h := by
  rw [val_main_v0_apply]
  unfold proj
  refine Finset.sum_congr rfl fun c _ => ?_
  rw [lidx_proj, ridx_proj]

/-- The query projection. -/
theorem v1_eq (x0 : (⟨S8x2048x1024, .f32⟩ : BufTy).Contents (Elt Ideal)) (x2 : (⟨S64x1024, .f32⟩ : BufTy).Contents (Elt Ideal))
    (b : Fin 8) (t : Fin 2048) (h : Fin 64) :
    val_main_v1 (F := Ideal) x0 x2 (ix3 b t h) = proj (act x0) (wt x2) b t h := by
  rw [val_main_v1_apply]
  unfold proj
  refine Finset.sum_congr rfl fun c _ => ?_
  rw [show lidx_main_v1 (ix3 b t h) c = ix3 b t c from lidx_proj b t h c,
    show ridx_main_v1 (ix3 b t h) c = ix2 h c from ridx_proj b t h c]

/-- The value projection. -/
theorem v2_eq (x0 : (⟨S8x2048x1024, .f32⟩ : BufTy).Contents (Elt Ideal)) (x3 : (⟨S64x1024, .f32⟩ : BufTy).Contents (Elt Ideal))
    (b : Fin 8) (t : Fin 2048) (h : Fin 64) :
    val_main_v2 (F := Ideal) x0 x3 (ix3 b t h) = proj (act x0) (wt x3) b t h := by
  rw [val_main_v2_apply]
  unfold proj
  refine Finset.sum_congr rfl fun c _ => ?_
  rw [show lidx_main_v2 (ix3 b t h) c = ix3 b t c from lidx_proj b t h c,
    show ridx_main_v2 (ix3 b t h) c = ix2 h c from ridx_proj b t h c]

/-- The scale both programs multiply the scores by: 1024 to the power −1/2, kept as the two words. -/
abbrev refScale : EReal := Ideal.pow (Ideal.ofBits .f32 0x44800000#32) (Ideal.ofBits .f32 0xBF000000#32)

theorem v5_eq (i : S8x2048x2048.Idx) : val_main_v5 (F := Ideal) i = refScale := by
  rw [val_main_v5_apply]; rfl

theorem lidx_score (b : Fin 8) (t s : Fin 2048) (h : Fin 64) :
    lidx_main_v4 (ix3 b t s) h = ix3 b t h :=
  funext fun a => Fin.ext (by match a with | ⟨0, _⟩ => rfl | ⟨1, _⟩ => rfl | ⟨2, _⟩ => rfl)

theorem ridx_score (b : Fin 8) (t s : Fin 2048) (h : Fin 64) :
    ridx_main_v4 (ix3 b t s) h = ix3 b s h :=
  funext fun a => Fin.ext (by match a with | ⟨0, _⟩ => rfl | ⟨1, _⟩ => rfl | ⟨2, _⟩ => rfl)

/-- The scaled score of query token t against key token s. -/
theorem v6_eq (x0 : (⟨S8x2048x1024, .f32⟩ : BufTy).Contents (Elt Ideal)) (x1 x2 : (⟨S64x1024, .f32⟩ : BufTy).Contents (Elt Ideal))
    (b : Fin 8) (t s : Fin 2048) :
    val_main_v6 (F := Ideal) x0 x1 x2 (ix3 b t s) = score refScale (act x0) (wt x2) (wt x1) b t s := by
  rw [val_main_v6_apply, val_main_v4_apply, v5_eq, Ideal.mulf_def]
  unfold score
  refine congrArg (· * refScale) (Finset.sum_congr rfl fun h _ => ?_)
  rw [lidx_score, ridx_score, v1_eq, v0_eq]

/-- The word of minus infinity is the bottom of the extended reals. -/
theorem negInf_word : Ideal.ofBits .f32 0xFF800000#32 = (⊥ : EReal) := by simp [Ideal.ofBits, Ideal.ieee]

/-- The row index (b, t) with key token k put back on the reduced axis is (b, t, k). -/
theorem lift_row (h : S8x2048x2048.Reduces [2] S8x2048) (b : Fin 8) (t : Fin 2048) (k : Fin (S8x2048x2048.size 2)) :
    h.lift (ix2 b t) k = ix3 b t (⟨k.val, k.isLt⟩ : Fin 2048) :=
  funext fun a => Fin.ext (by match a with | ⟨0, _⟩ => rfl | ⟨1, _⟩ => rfl | ⟨2, _⟩ => rfl)

/-- The max-reduce of the scores along the key axis, from minus infinity, is the row's supremum. -/
theorem v7_eq (x0 : (⟨S8x2048x1024, .f32⟩ : BufTy).Contents (Elt Ideal)) (x1 x2 : (⟨S64x1024, .f32⟩ : BufTy).Contents (Elt Ideal))
    (b : Fin 8) (t : Fin 2048) :
    val_main_v7 (F := Ideal) x0 x1 x2 (ix2 b t) = rowMax refScale (act x0) (wt x2) (wt x1) b t := by
  unfold val_main_v7
  have hR : S8x2048x2048.Reduces [2] S8x2048 := by decide
  rw [Host.reduce_eq_fold_single FloatOps.maximumf _ _ _ hR _]
  have hf : (val_main_v6 (F := Ideal) x0 x1 x2 ∘ hR.lift (ix2 b t))
      = fun s : Fin 2048 => score refScale (act x0) (wt x2) (wt x1) b t s :=
    funext fun k => (congrArg (val_main_v6 (F := Ideal) x0 x1 x2) (lift_row hR b t k)).trans (v6_eq x0 x1 x2 b t _)
  rw [hf, val_main_cst_1_apply, Ideal.ofBits_def, negInf_word]
  rfl

theorem idx_row (b : Fin 8) (t s : Fin 2048) : idx_main_v10 (idx_main_v11 (ix3 b t s)) = ix2 b t :=
  funext fun a => Fin.ext (by match a with | ⟨0, _⟩ => rfl | ⟨1, _⟩ => rfl)

/-- The maximum the scores are shifted by. -/
theorem v9_eq (x0 : (⟨S8x2048x1024, .f32⟩ : BufTy).Contents (Elt Ideal)) (x1 x2 : (⟨S64x1024, .f32⟩ : BufTy).Contents (Elt Ideal))
    (b : Fin 8) (t : Fin 2048) :
    val_main_v9 (F := Ideal) x0 x1 x2 (ix2 b t) = rowMax refScale (act x0) (wt x2) (wt x1) b t := by
  rw [val_main_v9_apply, val_main_v8_apply, val_main_cst_2_apply, Ideal.ofBits_def, negInf_word, v7_eq, Ideal.maximumf_def]
  exact max_eq_right bot_le

/-- The unnormalised softmax weight. -/
theorem v13_eq (x0 : (⟨S8x2048x1024, .f32⟩ : BufTy).Contents (Elt Ideal)) (x1 x2 : (⟨S64x1024, .f32⟩ : BufTy).Contents (Elt Ideal))
    (b : Fin 8) (t s : Fin 2048) :
    val_main_v13 (F := Ideal) x0 x1 x2 (ix3 b t s) = weight refScale (act x0) (wt x2) (wt x1) b t s := by
  rw [val_main_v13_apply, val_main_v12_apply, val_main_v11_apply, val_main_v10_apply, idx_row, v9_eq, v6_eq,
    Ideal.hostUnary_exp_def, Ideal.subf_def]
  rfl

theorem idx_row' (b : Fin 8) (t s : Fin 2048) : idx_main_v15 (idx_main_v16 (ix3 b t s)) = ix2 b t :=
  funext fun a => Fin.ext (by match a with | ⟨0, _⟩ => rfl | ⟨1, _⟩ => rfl)

theorem idx_sum (b : Fin 8) (t s : Fin 2048) : idx_main_v14 (ix2 b t) s = ix3 b t s :=
  funext fun a => Fin.ext (by match a with | ⟨0, _⟩ => rfl | ⟨1, _⟩ => rfl | ⟨2, _⟩ => rfl)

/-- The row's normaliser, broadcast back along the key axis. -/
theorem v16_eq (x0 : (⟨S8x2048x1024, .f32⟩ : BufTy).Contents (Elt Ideal)) (x1 x2 : (⟨S64x1024, .f32⟩ : BufTy).Contents (Elt Ideal))
    (b : Fin 8) (t s : Fin 2048) :
    val_main_v16 (F := Ideal) x0 x1 x2 (ix3 b t s) = ∑ s' : Fin 2048, weight refScale (act x0) (wt x2) (wt x1) b t s' := by
  rw [val_main_v16_apply, val_main_v15_apply, idx_row', val_main_v14_apply, val_main_cst_3_apply, Ideal.ofBits_def,
    Ideal.ofBits_zero_f32, zero_add]
  refine Finset.sum_congr rfl fun s' _ => ?_
  rw [idx_sum, v13_eq]

theorem lidx_out (b : Fin 8) (t : Fin 2048) (h : Fin 64) (s : Fin 2048) : lidx_main_v18 (ix3 b t h) s = ix3 b t s :=
  funext fun a => Fin.ext (by match a with | ⟨0, _⟩ => rfl | ⟨1, _⟩ => rfl | ⟨2, _⟩ => rfl)

theorem ridx_out (b : Fin 8) (t : Fin 2048) (h : Fin 64) (s : Fin 2048) : ridx_main_v18 (ix3 b t h) s = ix3 b s h :=
  funext fun a => Fin.ext (by match a with | ⟨0, _⟩ => rfl | ⟨1, _⟩ => rfl | ⟨2, _⟩ => rfl)

/-- The reference program's result, entry by entry, is the textbook softmax attention of its four arguments. -/
theorem ref_eq (x0 : (⟨S8x2048x1024, .f32⟩ : BufTy).Contents (Elt Ideal)) (x1 x2 x3 : (⟨S64x1024, .f32⟩ : BufTy).Contents (Elt Ideal))
    (b : Fin 8) (t : Fin 2048) (h : Fin 64) :
    Cert.ReferenceIdeal.Read.val_main_v18 (F := Ideal) x0 x1 x2 x3 (ValueIdx.ix3 b t h)
      = Cert.Attn.refOut (Ideal.pow (Ideal.ofBits .f32 0x44800000#32) (Ideal.ofBits .f32 0xBF000000#32))
          (fun b t c => x0 (ValueIdx.ix3 b t c)) (fun h c => x1 (ValueIdx.ix2 h c)) (fun h c => x2 (ValueIdx.ix2 h c)) (fun h c => x3 (ValueIdx.ix2 h c)) b t h := by
  rw [val_main_v18_apply]
  unfold refOut
  refine Finset.sum_congr rfl fun s _ => ?_
  rw [lidx_out, ridx_out, val_main_v17_apply, v13_eq, v16_eq, v2_eq, Ideal.hostDivf_def]

end Cert.RefValue

end
-- ==== Proof.Finite.lean ====
import proofs.«135365_j10101763080424_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The scalar shape has one index. -/
instance subsingleton_scalar_idx : Subsingleton S_.Idx := ⟨fun a b => funext fun d => d.elim0⟩

/-- An extended real whose absolute value is strictly below plus infinity is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- Under the printed precondition every entry of the four arguments is a real number. -/
theorem finite_of_pre [Cert.Pre_finite_inputs.Facts]
    (a0 : (⟨S8x2048x1024, .f32⟩ : BufTy).Contents (Elt Ideal)) (a1 a2 a3 : (⟨S64x1024, .f32⟩ : BufTy).Contents (Elt Ideal))
    (hpre : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h := congrFun hpre ValueIdx.ix0
  dsimp only [fn, fn_part1] at h
  obtain ⟨h012, h3⟩ := IntOp.andi_eq_one.1 h
  obtain ⟨h01, h2⟩ := IntOp.andi_eq_one.1 h012
  obtain ⟨h0, h1⟩ := IntOp.andi_eq_one.1 h01
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

end Cert.Finite

end
-- ==== Proof.OnlineSoftmax.lean ====
/-
  The one-pass ("online") softmax over four tiles equals the textbook softmax, on finite inputs.

  Every quantity is a real: the projections and scores are finite sums of products of reals, the row maximum is the
  greatest of 2048 reals, every weight is the exponential of a real. So the whole computation is carried out in the
  reals and read back into the extended reals through the coercion.

  The invariant of the one-pass form: after the first `n` tiles, with running maximum `m` (some real),
      l     = ∑ over the tokens s of the first n tiles of exp (w s - m),
      acc h = ∑ over the same s of exp (w s - m) · v s h,
  because a step to the new maximum `m'` multiplies both by `exp (m - m')`, and
  `exp (m - m') · exp (w s - m) = exp (w s - m')`.
  After four tiles the sums run over all 2048 tokens, and `acc h / l` is the softmax average of `v · h`: a quotient
  of two sums that does not depend on the shift `m` (a common factor `exp (M - m)` cancels), so it equals the
  textbook form shifted by the row maximum `M`.
-/
import proofs.«135365_j10101763080424_2_alg».proof.Proof.Spec
import Mathlib.Analysis.SpecialFunctions.Exp
import Mathlib.Data.EReal.Operations

noncomputable section

namespace Cert.Attn

open Idealize.ShloMosaic

/-! ### The coercion of the reals into the extended reals, on finite sums and finite maxima -/

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many (at least one) coerced reals is the coercion of their greatest. -/
theorem sup_coe {ι : Type*} [Fintype ι] [Nonempty ι] (f : ι → ℝ) :
    (Finset.univ.sup fun i => (f i : EReal)) = ((Finset.univ.sup' Finset.univ_nonempty f : ℝ) : EReal) := by
  rw [← Finset.sup'_eq_sup Finset.univ_nonempty]
  exact (Finset.comp_sup'_eq_sup'_comp Finset.univ_nonempty (fun r : ℝ => (r : EReal))
    (fun a b => EReal.coe_strictMono.monotone.map_max)).symm

/-- The greater of two coerced reals. -/
theorem max_coe (a b : ℝ) : max (a : EReal) (b : EReal) = ((max a b : ℝ) : EReal) :=
  (EReal.coe_strictMono.monotone.map_max).symm

/-! ### The tiles partition the tokens -/

/-- A sum over the 2048 tokens is the sum over the four tiles of the sums over each tile's 512 tokens. -/
theorem sum_tiles {α : Type*} [AddCommMonoid α] (f : Fin 2048 → α) :
    ∑ s, f s = ∑ j : Fin 4, ∑ r : Fin 512, f (tileTok j r) := by
  rw [← Fintype.sum_prod_type']
  symm
  refine Fintype.sum_bijective (fun p : Fin 4 × Fin 512 => tileTok p.1 p.2) ?_ _ _ (fun _ => rfl)
  rw [Fintype.bijective_iff_injective_and_card]
  refine ⟨?_, by simp⟩
  rintro ⟨j, r⟩ ⟨j', r'⟩ h
  have h' : 512 * j.val + r.val = 512 * j'.val + r'.val := congrArg Fin.val h
  have hj : j.val = j'.val := by omega
  have hr : r.val = r'.val := by omega
  exact Prod.ext (Fin.ext hj) (Fin.ext hr)

/-- The same, with the tiles indexed by the naturals below 4 as the one-pass recursion indexes them. -/
theorem sum_range_tiles {α : Type*} [AddCommMonoid α] (f : Fin 2048 → α) :
    ∑ j ∈ Finset.range 4, ∑ r : Fin 512, f (tileTok ⟨j % 4, Nat.mod_lt _ (by norm_num)⟩ r) = ∑ s, f s := by
  rw [sum_tiles, Finset.sum_range]
  refine Finset.sum_congr rfl fun j _ => ?_
  have : (⟨j.val % 4, Nat.mod_lt _ (by norm_num)⟩ : Fin 4) = j := Fin.ext (Nat.mod_eq_of_lt j.isLt)
  rw [this]

/-! ### The algebra in the reals -/

/-- A softmax average does not depend on the shift: the common factor `exp (M - m)` cancels. -/
theorem softmax_shift {ι : Type*} [Fintype ι] [Nonempty ι] (w v : ι → ℝ) (m M : ℝ) :
    (∑ s, Real.exp (w s - m) * v s) * (1 / ∑ s, Real.exp (w s - m))
      = ∑ s, Real.exp (w s - M) * (1 / ∑ s', Real.exp (w s' - M)) * v s := by
  have hE : ∀ s, Real.exp (w s - m) = Real.exp (M - m) * Real.exp (w s - M) := by
    intro s; rw [← Real.exp_add]; congr 1; ring
  have hc : Real.exp (M - m) ≠ 0 := (Real.exp_pos _).ne'
  have hG : (∑ s', Real.exp (w s' - M)) ≠ 0 :=
    (Finset.sum_pos (fun s _ => Real.exp_pos _) Finset.univ_nonempty).ne'
  have h1 : ∑ s, Real.exp (w s - m) * v s = Real.exp (M - m) * ∑ s, Real.exp (w s - M) * v s := by
    rw [Finset.mul_sum]; exact Finset.sum_congr rfl fun s _ => by rw [hE s, mul_assoc]
  have h2 : ∑ s, Real.exp (w s - m) = Real.exp (M - m) * ∑ s, Real.exp (w s - M) := by
    rw [Finset.mul_sum]; exact Finset.sum_congr rfl fun s _ => hE s
  have h3 : ∑ s, Real.exp (w s - M) * (1 / ∑ s', Real.exp (w s' - M)) * v s
      = (∑ s, Real.exp (w s - M) * v s) * (1 / ∑ s', Real.exp (w s' - M)) := by
    rw [Finset.sum_mul]; exact Finset.sum_congr rfl fun s _ => by ring
  rw [h1, h2, h3]
  field_simp

/-! ### One step of the one-pass form, on real data -/

/-- A step on real scores, real values and a real state is a real state: the new maximum `m'` is the greater of the
    old one and the tile's greatest score, and both running sums are rescaled by `exp (m - m')`. -/
theorem step_coe (sc : Fin 512 → ℝ) (vv : Fin 512 → Fin 64 → ℝ) (m l : ℝ) (acc : Fin 64 → ℝ) :
    Row.step (fun r => (sc r : EReal)) (fun r h => (vv r h : EReal))
        ⟨(m : EReal), (l : EReal), fun h => (acc h : EReal)⟩
      = ⟨((max m (Finset.univ.sup' Finset.univ_nonempty sc) : ℝ) : EReal),
          ((Real.exp (m - max m (Finset.univ.sup' Finset.univ_nonempty sc)) * l
            + ∑ r, Real.exp (sc r - max m (Finset.univ.sup' Finset.univ_nonempty sc)) : ℝ) : EReal),
          fun h => ((Real.exp (m - max m (Finset.univ.sup' Finset.univ_nonempty sc)) * acc h
            + ∑ r, Real.exp (sc r - max m (Finset.univ.sup' Finset.univ_nonempty sc)) * vv r h : ℝ) : EReal)⟩ := by
  simp only [Row.step, sup_coe, max_coe, ← EReal.coe_sub, Ideal.exp_coe, ← EReal.coe_mul, ← coe_sum,
    ← EReal.coe_add]

/-- Raising the shift from `m` to `m'`: the sums over the tiles so far, rescaled by `exp (m - m')`, plus the new
    tile's sum at `m'`, are the sums over one more tile at `m'`. -/
theorem rescale_sum (n : ℕ) (m m' : ℝ) (e g : ℕ → Fin 512 → ℝ) :
    Real.exp (m - m') * (∑ j ∈ Finset.range n, ∑ r : Fin 512, Real.exp (e j r - m) * g j r)
        + ∑ r : Fin 512, Real.exp (e n r - m') * g n r
      = ∑ j ∈ Finset.range (n + 1), ∑ r : Fin 512, Real.exp (e j r - m') * g j r := by
  rw [Finset.sum_range_succ, Finset.mul_sum]
  congr 1
  refine Finset.sum_congr rfl fun j _ => ?_
  rw [Finset.mul_sum]
  refine Finset.sum_congr rfl fun r _ => ?_
  rw [← mul_assoc, ← Real.exp_add]
  congr 2
  ring

/-- The same without the factors `g`. -/
theorem rescale_sum_one (n : ℕ) (m m' : ℝ) (e : ℕ → Fin 512 → ℝ) :
    Real.exp (m - m') * (∑ j ∈ Finset.range n, ∑ r : Fin 512, Real.exp (e j r - m))
        + ∑ r : Fin 512, Real.exp (e n r - m')
      = ∑ j ∈ Finset.range (n + 1), ∑ r : Fin 512, Real.exp (e j r - m') := by
  simpa using rescale_sum n m m' e (fun _ _ => 1)

/-! ### The invariant of the one-pass form -/

/-- After `n` tiles the running maximum is some real `m`, the normaliser is the sum of `exp (w s - m)` over the
    tokens `s` of those tiles, and the accumulator the sum of `exp (w s - m) · v s h` over the same tokens. -/
theorem rowAfter_real (neg scale : ℝ) (x : Act) (wk wq wv : Wt) (b : Fin 8) (t : Fin 2048)
    (w : Fin 2048 → ℝ) (v : Fin 2048 → Fin 64 → ℝ)
    (hw : ∀ s, score (scale : EReal) x wq wk b t s = (w s : EReal))
    (hv : ∀ s h, proj x wv b s h = (v s h : EReal)) (n : ℕ) :
    ∃ m : ℝ, rowAfter (neg : EReal) (scale : EReal) x wk wq wv b t n =
      ⟨(m : EReal),
        ((∑ j ∈ Finset.range n, ∑ r : Fin 512,
            Real.exp (w (tileTok ⟨j % 4, Nat.mod_lt _ (by norm_num)⟩ r) - m) : ℝ) : EReal),
        fun h => ((∑ j ∈ Finset.range n, ∑ r : Fin 512,
            Real.exp (w (tileTok ⟨j % 4, Nat.mod_lt _ (by norm_num)⟩ r) - m)
              * v (tileTok ⟨j % 4, Nat.mod_lt _ (by norm_num)⟩ r) h : ℝ) : EReal)⟩ := by
  induction n with
  | zero => exact ⟨neg, by simp [rowAfter, Row.init]⟩
  | succ n ih =>
    obtain ⟨m, hm⟩ := ih
    refine ⟨max m (Finset.univ.sup' Finset.univ_nonempty
      fun r => w (tileTok ⟨n % 4, Nat.mod_lt _ (by norm_num)⟩ r)), ?_⟩
    rw [rowAfter, hm]
    simp only [hw, hv]
    rw [step_coe]
    congr 1
    · exact congrArg Real.toEReal
        (rescale_sum_one n m _ (fun j r => w (tileTok ⟨j % 4, Nat.mod_lt _ (by norm_num)⟩ r)))
    · funext h
      exact congrArg Real.toEReal
        (rescale_sum n m _ (fun j r => w (tileTok ⟨j % 4, Nat.mod_lt _ (by norm_num)⟩ r))
          (fun j r => v (tileTok ⟨j % 4, Nat.mod_lt _ (by norm_num)⟩ r) h))

/-! ### The two forms agree -/

/-- On finite inputs, with a finite stand-in `neg` for the initial maximum and a finite scale, the one-pass form
    over four tiles computes the textbook softmax attention. -/
theorem onlineOut_eq_refOut (neg scale : ℝ) (x : Act) (wk wq wv : Wt)
    (hx : ∀ b t c, ∃ r : ℝ, x b t c = (r : EReal)) (hk : ∀ h c, ∃ r : ℝ, wk h c = (r : EReal))
    (hq : ∀ h c, ∃ r : ℝ, wq h c = (r : EReal)) (hv : ∀ h c, ∃ r : ℝ, wv h c = (r : EReal)) :
    onlineOut (neg : EReal) (scale : EReal) x wk wq wv = refOut (scale : EReal) x wk wq wv := by
  choose xr hxr using hx
  choose kr hkr using hk
  choose qr hqr using hq
  choose vr hvr using hv
  funext b t h
  -- a projection of real data by real weights is a real
  have hproj : ∀ (u : Wt) (ur : Fin 64 → Fin 1024 → ℝ), (∀ h c, u h c = (ur h c : EReal)) →
      ∀ b t h, proj x u b t h = ((∑ c, xr b t c * ur h c : ℝ) : EReal) := by
    intro u ur hur b t h
    simp only [proj, hxr, hur, ← EReal.coe_mul, ← coe_sum]
  -- the scores of this row and the values, as reals
  obtain ⟨w, hw⟩ : ∃ w : Fin 2048 → ℝ, ∀ s, score (scale : EReal) x wq wk b t s = (w s : EReal) :=
    ⟨fun s => (∑ h, (∑ c, xr b t c * qr h c) * (∑ c, xr b s c * kr h c)) * scale, fun s => by
      simp only [score, hproj wq qr hqr, hproj wk kr hkr, ← EReal.coe_mul, ← coe_sum]⟩
  obtain ⟨v, hv'⟩ : ∃ v : Fin 2048 → Fin 64 → ℝ, ∀ s h, proj x wv b s h = (v s h : EReal) :=
    ⟨fun s h => ∑ c, xr b s c * vr h c, fun s h => hproj wv vr hvr b s h⟩
  -- the one-pass form: a quotient of two sums over all tokens, at some real shift m
  obtain ⟨m, hm⟩ := rowAfter_real neg scale x wk wq wv b t w v hw hv' 4
  have hD : (∑ s, Real.exp (w s - m)) ≠ 0 :=
    (Finset.sum_pos (fun s _ => Real.exp_pos _) Finset.univ_nonempty).ne'
  have hon : onlineOut (neg : EReal) (scale : EReal) x wk wq wv b t h
      = (((∑ s, Real.exp (w s - m) * v s h) * (1 / ∑ s, Real.exp (w s - m)) : ℝ) : EReal) := by
    rw [onlineOut, hm]
    simp only []
    rw [sum_range_tiles (fun s => Real.exp (w s - m)), sum_range_tiles (fun s => Real.exp (w s - m) * v s h),
      Ideal.div_coe hD, ← EReal.coe_mul]
  -- the textbook form: the same quotient at the shift M, the row's greatest score
  have hM : rowMax (scale : EReal) x wq wk b t
      = ((Finset.univ.sup' Finset.univ_nonempty w : ℝ) : EReal) := by
    rw [rowMax]; simp only [hw]; exact sup_coe w
  have hG : (∑ s, Real.exp (w s - Finset.univ.sup' Finset.univ_nonempty w)) ≠ 0 :=
    (Finset.sum_pos (fun s _ => Real.exp_pos _) Finset.univ_nonempty).ne'
  have hwt : ∀ s, weight (scale : EReal) x wq wk b t s
      = ((Real.exp (w s - Finset.univ.sup' Finset.univ_nonempty w) : ℝ) : EReal) := by
    intro s; rw [weight, hw, hM, ← EReal.coe_sub, Ideal.exp_coe]
  have href : refOut (scale : EReal) x wk wq wv b t h
      = ((∑ s, Real.exp (w s - Finset.univ.sup' Finset.univ_nonempty w)
          * (1 / ∑ s', Real.exp (w s' - Finset.univ.sup' Finset.univ_nonempty w)) * v s h : ℝ) : EReal) := by
    rw [refOut, coe_sum]
    refine Finset.sum_congr rfl fun s _ => ?_
    simp only [hwt, hv', ← coe_sum]
    rw [Ideal.div_coe hG, ← EReal.coe_mul, ← EReal.coe_mul]
  rw [hon, href, softmax_shift]

end Cert.Attn

end
-- ==== Proof.Consts.lean ====
/- The float constants the two programs spell, as the extended reals their IEEE patterns denote: the softmax
   scale (written as the word of 0.03125 on one side and as 1024 ^ (-0.5) on the other: both are 1/32), the finite
   stand-in for minus infinity that starts the running maximum, minus infinity itself, and zero. -/
import Idealize.ShloMosaic.PureOps.Ideal

noncomputable section

namespace Cert.Consts

open Idealize.ShloMosaic

/-- The word of `0.03125`: sign 0, exponent field 122, significand 0, that is `2^23 · 2^(122 - 127 - 23) = 2^(-5)`. -/
theorem scale_kernel : Ideal.ofBits .f32 0x3D000000#32 = ((1 / 32 : ℝ) : EReal) := by
  simp [Ideal.ofBits, Ideal.ieee, -EReal.coe_mul]; norm_num

/-- The word of `1024.0`: exponent field 137, significand 0, that is `2^23 · 2^(137 - 127 - 23) = 2^10`. -/
theorem ofBits_1024 : Ideal.ofBits .f32 0x44800000#32 = ((1024 : ℝ) : EReal) := by
  simp [Ideal.ofBits, Ideal.ieee, -EReal.coe_mul]; norm_num

/-- The word of `-0.5`: sign 1, exponent field 126, significand 0, that is `-(2^23 · 2^(126 - 127 - 23)) = -(1/2)`. -/
theorem ofBits_neg_half : Ideal.ofBits .f32 0xBF000000#32 = ((-(1 / 2) : ℝ) : EReal) := by
  simp [Ideal.ofBits, Ideal.ieee, -EReal.coe_mul]; norm_num

/-- `1024 ^ (-1/2) = 1/32`: `1024 = 32^2`, so `1024 ^ (1/2) = 32`, and a negated exponent inverts. -/
theorem rpow_1024_neg_half : Real.rpow 1024 (-(1 / 2)) = 1 / 32 := by
  show (1024 : ℝ) ^ (-(1 / 2) : ℝ) = 1 / 32
  have h : (1024 : ℝ) = (32 : ℝ) ^ (2 : ℝ) := by norm_num
  rw [h, ← Real.rpow_mul (by norm_num : (0 : ℝ) ≤ 32)]
  norm_num

/-- The reference's scale `1024 ^ (-0.5)` is `1/32`. -/
theorem scale_ref :
    Ideal.pow (Ideal.ofBits .f32 0x44800000#32) (Ideal.ofBits .f32 0xBF000000#32) = ((1 / 32 : ℝ) : EReal) := by
  rw [ofBits_1024, ofBits_neg_half, Ideal.pow_coe_coe, rpow_1024_neg_half]

/-- The stand-in for minus infinity: sign 1, exponent field 254 (not all ones), so a finite real. -/
theorem neg_real : ∃ r : ℝ, Ideal.ofBits .f32 0xFF333332#32 = (r : EReal) := by
  simp only [Ideal.ofBits, Ideal.ieee]
  rw [if_neg (by decide), if_neg (by decide)]
  exact ⟨_, rfl⟩

/-- Sign 1, exponent field all ones, significand 0: minus infinity. -/
theorem neg_inf : Ideal.ofBits .f32 0xFF800000#32 = (⊥ : EReal) := by
  simp [Ideal.ofBits, Ideal.ieee]

/-- Both zero patterns denote `0`; this is `+0.0`. -/
theorem zero_word : Ideal.ofBits .f32 0x00000000#32 = (0 : EReal) := by
  simp [Ideal.ofBits, Ideal.ieee]

end Cert.Consts

end
-- ==== Proof.lean ====
/-
  A fused attention head — the query, key and value projections, the scores, and a softmax taken in ONE PASS over four
  tiles of 512 key/value tokens with a running maximum started at a finite stand-in — against the textbook softmax
  attention: project, score, subtract the row maximum, exponentiate, normalise, weight the values.

  Over the extended reals with finite inputs every quantity is a real number. The one-pass form carries, per query row,
  the maximum m, the normaliser l = Σ exp(score − m) and the weighted sum acc = Σ exp(score − m)·value over the tokens
  seen so far, rescaling l and acc by exp(m_old − m_new) when a tile raises the maximum; after the last tile acc / l is
  Σ exp(score − m)·value / Σ exp(score − m), which does not depend on the finite shift m: it is the softmax-weighted
  sum of the values. The scale 1024^(−1/2) the reference computes is the kernel's literal 1/32.

  The kernel's run is read point by point over its 8 × 4 grid (sequence, tile): the scratch buffers after each point
  hold the carried state of every row of the sequence, the output block at a sequence's last tile holds acc / l. The
  activation array is read through two windows (the whole sequence for the queries, one tile for keys and values).
  The word-level kernel's frame is the same run read without its values.
-/
import proofs.«135365_j10101763080424_2_alg».proof.Defs
import proofs.«135365_j10101763080424_2_alg».proof.Proof.Gen.Kernel
import proofs.«135365_j10101763080424_2_alg».proof.Proof.Gen.KernelIdeal
import proofs.«135365_j10101763080424_2_alg».proof.Proof.Gen.ReferenceIdeal
import proofs.«135365_j10101763080424_2_alg».proof.Proof.Gen.Pre_finite_inputs
import proofs.«135365_j10101763080424_2_alg».proof.Proof.Gen.ReferenceIdeal.Run
import proofs.«135365_j10101763080424_2_alg».proof.Proof.KB.Run
import proofs.«135365_j10101763080424_2_alg».proof.Proof.KI.Run
import proofs.«135365_j10101763080424_2_alg».proof.Proof.KI.Value
import proofs.«135365_j10101763080424_2_alg».proof.Proof.RefStages
import proofs.«135365_j10101763080424_2_alg».proof.Proof.Finite
import proofs.«135365_j10101763080424_2_alg».proof.Proof.OnlineSoftmax
import proofs.«135365_j10101763080424_2_alg».proof.Proof.Consts

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the softmax attention of the arguments: the kernel's output array is the one-pass form, the
    reference's result the textbook form, and on finite inputs the two are one function. -/
theorem algebraic : Cert.algebraic_KernelIdeal_ReferenceIdeal := by
  intro m ρ m' ρ' hpre hagree
  refine ⟨fun c => (Cert.KernelIdeal.Hand.dats (F := Ideal) m 0 c).arrAt 5 Cert.KernelIdeal.cfg0.N,
    Cert.KernelIdeal.Hand.run_out (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v18_eq]
  beta_reduce
  rw [Cert.KernelIdeal.Hand.out_eq m c]
  obtain ⟨hx, hk, hq, hv⟩ := Cert.Finite.finite_of_pre _ _ _ _ (hpre c)
  obtain ⟨rn, hn⟩ := Cert.Consts.neg_real
  funext i
  obtain ⟨b, t, h, rfl⟩ : ∃ (b : Fin 8) (t : Fin 2048) (h : Fin 64), i = ValueIdx.ix3 b t h := ⟨i 0, i 1, i 2, ValueIdx.eq_ix3 i⟩
  rw [Cert.RefValue.ref_eq, Cert.Consts.scale_ref]
  show _ = Cert.Attn.onlineOut _ _ _ _ _ _ b t h
  rw [show (Cert.KernelIdeal.Hand.NEG : EReal) = (rn : EReal) from hn, show (Cert.KernelIdeal.Hand.SC : EReal) = ((1 / 32 : ℝ) : EReal) from Cert.Consts.scale_kernel]
  exact (congrFun (congrFun (congrFun (Cert.Attn.onlineOut_eq_refOut rn (1 / 32) _ _ _ _
    (fun b t cc => hx _) (fun h cc => hk _) (fun h cc => hq _) (fun h cc => hv _)) b) t) h).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
